-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S16x4096x64 : Shape := ⟨3, ![16, 4096, 64]⟩
abbrev S512x1024 : Shape := ⟨2, ![512, 1024]⟩
abbrev S16x512x64 : Shape := ⟨3, ![16, 512, 64]⟩
abbrev S512x16x64 : Shape := ⟨3, ![512, 16, 64]⟩
abbrev S16x128x64 : Shape := ⟨3, ![16, 128, 64]⟩
abbrev S128x1024 : Shape := ⟨2, ![128, 1024]⟩
abbrev S2x128x64 : Shape := ⟨3, ![2, 128, 64]⟩
abbrev S2x4096x64 : Shape := ⟨3, ![2, 4096, 64]⟩
abbrev S2x128x4096 : Shape := ⟨3, ![2, 128, 4096]⟩
abbrev S2x128 : Shape := ⟨2, ![2, 128]⟩
abbrev S2x128x1 : Shape := ⟨3, ![2, 128, 1]⟩
abbrev S128x2x64 : Shape := ⟨3, ![128, 2, 64]⟩
abbrev S128x128 : Shape := ⟨2, ![128, 128]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16x4096x64, .f32⟩
  | .hbm, ⟨5, _⟩ => ⟨S16x4096x64, .f32⟩
  | .hbm, ⟨6, _⟩ => ⟨S16x4096x64, .f32⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S16x512x64, .f32⟩
  | .local _ .vmem, ⟨6, _⟩ => ⟨S16x512x64, .f32⟩
  | .local _ .vmem, ⟨7, _⟩ => ⟨S16x512x64, .f32⟩
  | .local _ .vmem, ⟨8, _⟩ => ⟨S16x512x64, .f32⟩
  | .local _ .vmem, ⟨9, _⟩ => ⟨S16x512x64, .f32⟩
  | .local _ .vmem, ⟨10, _⟩ => ⟨S16x512x64, .f32⟩
  | .local _ .vmem, ⟨11, _⟩ => ⟨S16x128x64, .f32⟩
  | .local _ .vmem, ⟨12, _⟩ => ⟨S16x128x64, .f32⟩
  | .local _ .vmem, ⟨13, _⟩ => ⟨S16x4096x64, .f32⟩
  | .local _ .vmem, ⟨14, _⟩ => ⟨S16x4096x64, .f32⟩
  | .local _ .vmem, ⟨15, _⟩ => ⟨S128x1024, .f32⟩
  | .local _ .vmem, ⟨16, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x4096x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S512x1024_S512x16x64 : S512x1024.ShapeCasts S512x16x64
  transposes_S512x16x64_p1_0_2_S16x512x64 : S512x16x64.Transposes [1, 0, 2] S16x512x64
  inb_S16x512x64_S16x512x64_0_0_0 : ∀ a, (![0, 0, 0] : Fin 3 → Nat) a + S16x512x64.size a ≤ S16x512x64.size a
  h_S16x512x64 : 0 < S16x512x64.numel
  inb_S16x128x64_S2x128x64_0_0_0 : ∀ a, (![0, 0, 0] : Fin 3 → Nat) a + S2x128x64.size a ≤ S16x128x64.size a
  h_S2x128x64 : 0 < S2x128x64.numel
  shapeCasts_S2x128x64_S2x128x64 : S2x128x64.ShapeCasts S2x128x64
  inb_S16x4096x64_S2x4096x64_0_0_0 : ∀ a, (![0, 0, 0] : Fin 3 → Nat) a + S2x4096x64.size a ≤ S16x4096x64.size a
  h_S2x4096x64 : 0 < S2x4096x64.numel
  shapeCasts_S2x4096x64_S2x4096x64 : S2x4096x64.ShapeCasts S2x4096x64
  reduces_S2x128x4096_S2x128 : S2x128x4096.Reduces [2] S2x128
  shapeCasts_S2x128_S2x128x1 : S2x128.ShapeCasts S2x128x1
  broadcasts_S2x128x1_S2x128x4096 : S2x128x1.Broadcasts S2x128x4096
  transposes_S2x128x64_p1_0_2_S128x2x64 : S2x128x64.Transposes [1, 0, 2] S128x2x64
  shapeCasts_S128x2x64_S128x128 : S128x2x64.ShapeCasts S128x128
  inb_S128x1024_S128x128_0_0 : ∀ a, (![0, 0] : Fin 2 → Nat) a + S128x128.size a ≤ S128x1024.size a
  h_S128x128 : 0 < S128x128.numel
  inb_S16x128x64_S2x128x64_2_0_0 : ∀ a, (![2, 0, 0] : Fin 3 → Nat) a + S2x128x64.size a ≤ S16x128x64.size a
  inb_S16x4096x64_S2x4096x64_2_0_0 : ∀ a, (![2, 0, 0] : Fin 3 → Nat) a + S2x4096x64.size a ≤ S16x4096x64.size a
  inb_S128x1024_S128x128_0_128 : ∀ a, (![0, 128] : Fin 2 → Nat) a + S128x128.size a ≤ S128x1024.size a
  inb_S16x128x64_S2x128x64_4_0_0 : ∀ a, (![4, 0, 0] : Fin 3 → Nat) a + S2x128x64.size a ≤ S16x128x64.size a
  inb_S16x4096x64_S2x4096x64_4_0_0 : ∀ a, (![4, 0, 0] : Fin 3 → Nat) a + S2x4096x64.size a ≤ S16x4096x64.size a
  inb_S128x1024_S128x128_0_256 : ∀ a, (![0, 256] : Fin 2 → Nat) a + S128x128.size a ≤ S128x1024.size a
  inb_S16x128x64_S2x128x64_6_0_0 : ∀ a, (![6, 0, 0] : Fin 3 → Nat) a + S2x128x64.size a ≤ S16x128x64.size a
  inb_S16x4096x64_S2x4096x64_6_0_0 : ∀ a, (![6, 0, 0] : Fin 3 → Nat) a + S2x4096x64.size a ≤ S16x4096x64.size a
  inb_S128x1024_S128x128_0_384 : ∀ a, (![0, 384] : Fin 2 → Nat) a + S128x128.size a ≤ S128x1024.size a
  inb_S16x128x64_S2x128x64_8_0_0 : ∀ a, (![8, 0, 0] : Fin 3 → Nat) a + S2x128x64.size a ≤ S16x128x64.size a
  inb_S16x4096x64_S2x4096x64_8_0_0 : ∀ a, (![8, 0, 0] : Fin 3 → Nat) a + S2x4096x64.size a ≤ S16x4096x64.size a
  inb_S128x1024_S128x128_0_512 : ∀ a, (![0, 512] : Fin 2 → Nat) a + S128x128.size a ≤ S128x1024.size a
  inb_S16x128x64_S2x128x64_10_0_0 : ∀ a, (![10, 0, 0] : Fin 3 → Nat) a + S2x128x64.size a ≤ S16x128x64.size a
  inb_S16x4096x64_S2x4096x64_10_0_0 : ∀ a, (![10, 0, 0] : Fin 3 → Nat) a + S2x4096x64.size a ≤ S16x4096x64.size a
  inb_S128x1024_S128x128_0_640 : ∀ a, (![0, 640] : Fin 2 → Nat) a + S128x128.size a ≤ S128x1024.size a
  inb_S16x128x64_S2x128x64_12_0_0 : ∀ a, (![12, 0, 0] : Fin 3 → Nat) a + S2x128x64.size a ≤ S16x128x64.size a
  inb_S16x4096x64_S2x4096x64_12_0_0 : ∀ a, (![12, 0, 0] : Fin 3 → Nat) a + S2x4096x64.size a ≤ S16x4096x64.size a
  inb_S128x1024_S128x128_0_768 : ∀ a, (![0, 768] : Fin 2 → Nat) a + S128x128.size a ≤ S128x1024.size a
  inb_S16x128x64_S2x128x64_14_0_0 : ∀ a, (![14, 0, 0] : Fin 3 → Nat) a + S2x128x64.size a ≤ S16x128x64.size a
  inb_S16x4096x64_S2x4096x64_14_0_0 : ∀ a, (![14, 0, 0] : Fin 3 → Nat) a + S2x4096x64.size a ≤ S16x4096x64.size a
  inb_S128x1024_S128x128_0_896 : ∀ a, (![0, 896] : Fin 2 → Nat) a + S128x128.size a ≤ S128x1024.size a
  dot_S512x1024_S1024x1024_S512x1024_1_0_0_1_n_n_wf : DotDims.WF S512x1024 S1024x1024 S512x1024 [1] [0] [0] [1] [] []
  dot_S2x128x64_S2x4096x64_S2x128x4096_2_2_1_1_0_0_wf : DotDims.WF S2x128x64 S2x4096x64 S2x128x4096 [2] [2] [1] [1] [0] [0]
  dot_S2x128x4096_S2x4096x64_S2x128x64_2_1_1_2_0_0_wf : DotDims.WF S2x128x4096 S2x4096x64 S2x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512x64.size a ≤ S16x4096x64.size a
  hwx0_4 : ∀ i : grid0.Coords, EltTy.bits .f32 = 32 ∨ (Rect.block (s := S16x4096x64) S16x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x512x64.size a ≤ S16x4096x64.size a
  hwx0_5 : ∀ i : grid0.Coords, EltTy.bits .f32 = 32 ∨ (Rect.block (s := S16x4096x64) S16x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x512x64.size a ≤ S16x4096x64.size a
  hwx0_6 : ∀ i : grid0.Coords, EltTy.bits .f32 = 32 ∨ (Rect.block (s := S16x4096x64) S16x512x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x64.size a ≤ S16x4096x64.size a
  hwx1_0 : ∀ i : grid1.Coords, EltTy.bits .f32 = 32 ∨ (Rect.block (s := S16x4096x64) S16x128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x4096x64.size a ≤ S16x4096x64.size a
  hwx1_1 : ∀ i : grid1.Coords, EltTy.bits .f32 = 32 ∨ (Rect.block (s := S16x4096x64) S16x4096x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x4096x64.size a ≤ S16x4096x64.size a
  hwx1_2 : ∀ i : grid1.Coords, EltTy.bits .f32 = 32 ∨ (Rect.block (s := S16x4096x64) S16x4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S4096x1024.size a
  hwx1_3 : ∀ i : grid1.Coords, EltTy.bits .f32 = 32 ∨ (Rect.block (s := S4096x1024) S128x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S2x128x64_S2x4096x64_S2x128x4096_2_2_1_1_0_0 : DotDims S2x128x64 S2x4096x64 S2x128x4096 where
  lhsContracting := [2]
  rhsContracting := [2]
  lhsNonContracting := [1]
  rhsNonContracting := [1]
  lhsBatch := [0]
  rhsBatch := [0]
  wf := dot_S2x128x64_S2x4096x64_S2x128x4096_2_2_1_1_0_0_wf
def dot_S2x128x4096_S2x4096x64_S2x128x64_2_1_1_2_0_0 : DotDims S2x128x4096 S2x4096x64 S2x128x64 where
  lhsContracting := [2]
  rhsContracting := [1]
  lhsNonContracting := [1]
  rhsNonContracting := [2]
  lhsBatch := [0]
  rhsBatch := [0]
  wf := dot_S2x128x4096_S2x4096x64_S2x128x64_2_1_1_2_0_0_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S16x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S16x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S16x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S16x4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S16x4096x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x16x64, .f32⟩
  | .hbm, ⟨6, _⟩ => ⟨S16x4096x64, .f32⟩
  | .hbm, ⟨7, _⟩ => ⟨S4096x1024, .f32⟩
  | .hbm, ⟨8, _⟩ => ⟨S4096x16x64, .f32⟩
  | .hbm, ⟨9, _⟩ => ⟨S16x4096x64, .f32⟩
  | .hbm, ⟨10, _⟩ => ⟨S4096x1024, .f32⟩
  | .hbm, ⟨11, _⟩ => ⟨S4096x16x64, .f32⟩
  | .hbm, ⟨12, _⟩ => ⟨S16x4096x64, .f32⟩
  | .hbm, ⟨13, _⟩ => ⟨S16x4096x4096, .f32⟩
  | .hbm, ⟨14, _⟩ => ⟨S_, .f32⟩
  | .hbm, ⟨15, _⟩ => ⟨S_, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S16x4096, .f32⟩
  | .hbm, ⟨23, _⟩ => ⟨S16x4096x1, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S16x4096x4096, .f32⟩
  | .hbm, ⟨31, _⟩ => ⟨S16x4096x4096, .f32⟩
  | .hbm, ⟨32, _⟩ => ⟨S16x4096x64, .f32⟩
  | .hbm, ⟨33, _⟩ => ⟨S4096x16x64, .f32⟩
  | .hbm, ⟨34, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  shapeCasts_S4096x1024_S4096x16x64 : S4096x1024.ShapeCasts S4096x16x64
  transposes_S4096x16x64_S16x4096x64_1_0_2 : S4096x16x64.Transposes [1, 0, 2] S16x4096x64
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  transposes_S16x4096x64_S4096x16x64_1_0_2 : S16x4096x64.Transposes [1, 0, 2] S4096x16x64
  shapeCasts_S4096x16x64_S4096x1024 : S4096x16x64.ShapeCasts S4096x1024
  dot_S4096x1024_S1024x1024_S4096x1024_1_0_0_1_n_n_wf : DotDims.WF S4096x1024 S1024x1024 S4096x1024 [1] [0] [0] [1] [] []
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.KRun.lean ====
/-
  The idealized kernel's run with its result NAMED.  @main is two TensorCore regions in a row: the projection
  kernel writes the three head-split arrays, the attention kernel reads them and writes the result.  The launch of
  the two regions' segments is the one the generated frame makes; what is read off the final state here is more:
  besides the four argument arrays as launched, the result buffer holds what the second region's write-backs
  leave, `(dat1 (V1 m ρ) c).arrAt 3 cfg1.N` — the fold of the second pipeline's flushed blocks over the array as
  the region found it, the region entered at the contents the first region's write-backs leave.
-/
import proofs.«176169_j12214886990248_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the end of the fold through @main: the second region's array for its output window. -/
theorem W2_main_v1 (c : Dev nD) : W2 m ρ c (Proc.devRef .tc main_v1) = (dat1 (V1 m ρ) c).arrAt 3 cfg1.N :=
  W2_arr m ρ c 3

set_option backward.isDefEq.respectTransparency.types false in
/-- Every weakly fair execution of @main terminates, nothing faulting, with the result buffer at the second
    region's final array and the argument arrays as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.RunV

end
-- ==== Proof.KDots.lean ====
/-
  The kernel's three matrix products read at an index, on the extended reals: into a zero accumulator each is the
  plain sum over the contracted coordinate of the operands' products.

  * the projection, [512, 1024] × [1024, 1024]: entry (r, e) is Σ_k lhs(r, k) · rhs(k, e);
  * the scores of two heads, [2, 128, 64] × [2, 4096, 64] contracted along the last axis of both, the head axis
    shared: entry (h, r, t) is Σ_d q(h, r, d) · k(h, t, d);
  * the weighted values, [2, 128, 4096] × [2, 4096, 64], the head axis shared: entry (h, r, d) is
    Σ_t p(h, r, t) · v(h, t, d).

  For each product the operand indices at an output index and a contraction index are read coordinate by
  coordinate first (a shared axis and a kept axis copy the output's coordinate, the contracted axis takes the
  contraction index), then the sum over the contraction shape's one axis is re-indexed by its coordinate.
-/
import proofs.«176169_j12214886990248_2_alg».proof.Proof.Gen.KernelIdeal
import Idealize.ShloMosaic.PureOps.Ideal.Laws
import Idealize.ShloMosaic.Lib.ValueIdx

noncomputable section

namespace Cert.KernelIdeal.Dots

open Cert.KernelIdeal Cert.KernelIdeal.Gen Idealize.ShloMosaic Idealize.ShloMosaic.ValueIdx

abbrev DP := dot_S512x1024_S1024x1024_S512x1024_1_0_0_1_n_n
abbrev DQK := dot_S2x128x64_S2x4096x64_S2x128x4096_2_2_1_1_0_0
abbrev DPV := dot_S2x128x4096_S2x4096x64_S2x128x64_2_1_1_2_0_0

/-! ## The operand indices, coordinate by coordinate -/

theorem DP_lhs_0 (i : _) (q : DP.contr.Idx) : (DP.lhsIdx i q 0).val = (i 0).val := by
  unfold DotDims.lhsIdx
  rw [dif_neg (show ¬(0 : Fin S512x1024.rank) ∈ DP.lhsBatch by decide), dif_pos (show (0 : Fin S512x1024.rank) ∈ DP.lhsNonContracting by decide)]
  rfl
theorem DP_lhs_1 (i : _) (q : DP.contr.Idx) : (DP.lhsIdx i q 1).val = (q ⟨0, by decide⟩).val :=
  DP.lhsIdx_val_of_single rfl i q
theorem DP_rhs_0 (i : _) (q : DP.contr.Idx) : (DP.rhsIdx i q 0).val = (q ⟨0, by decide⟩).val :=
  DP.rhsIdx_val_of_single rfl i q
theorem DP_rhs_1 (i : _) (q : DP.contr.Idx) : (DP.rhsIdx i q 1).val = (i 1).val := by
  unfold DotDims.rhsIdx
  rw [dif_neg (show ¬(1 : Fin S1024x1024.rank) ∈ DP.rhsBatch by decide), dif_pos (show (1 : Fin S1024x1024.rank) ∈ DP.rhsNonContracting by decide)]
  rfl

theorem DQK_lhs_0 (i : _) (q : DQK.contr.Idx) : (DQK.lhsIdx i q 0).val = (i 0).val := by
  unfold DotDims.lhsIdx
  rw [dif_pos (show (0 : Fin S2x128x64.rank) ∈ DQK.lhsBatch by decide)]
  rfl
theorem DQK_lhs_1 (i : _) (q : DQK.contr.Idx) : (DQK.lhsIdx i q 1).val = (i 1).val := by
  unfold DotDims.lhsIdx
  rw [dif_neg (show ¬(1 : Fin S2x128x64.rank) ∈ DQK.lhsBatch by decide), dif_pos (show (1 : Fin S2x128x64.rank) ∈ DQK.lhsNonContracting by decide)]
  rfl
theorem DQK_lhs_2 (i : _) (q : DQK.contr.Idx) : (DQK.lhsIdx i q 2).val = (q ⟨0, by decide⟩).val :=
  DQK.lhsIdx_val_of_single rfl i q
theorem DQK_rhs_0 (i : _) (q : DQK.contr.Idx) : (DQK.rhsIdx i q 0).val = (i 0).val := by
  unfold DotDims.rhsIdx
  rw [dif_pos (show (0 : Fin S2x4096x64.rank) ∈ DQK.rhsBatch by decide)]
  rfl
theorem DQK_rhs_1 (i : _) (q : DQK.contr.Idx) : (DQK.rhsIdx i q 1).val = (i 2).val := by
  unfold DotDims.rhsIdx
  rw [dif_neg (show ¬(1 : Fin S2x4096x64.rank) ∈ DQK.rhsBatch by decide), dif_pos (show (1 : Fin S2x4096x64.rank) ∈ DQK.rhsNonContracting by decide)]
  rfl
theorem DQK_rhs_2 (i : _) (q : DQK.contr.Idx) : (DQK.rhsIdx i q 2).val = (q ⟨0, by decide⟩).val :=
  DQK.rhsIdx_val_of_single rfl i q

theorem DPV_lhs_0 (i : _) (q : DPV.contr.Idx) : (DPV.lhsIdx i q 0).val = (i 0).val := by
  unfold DotDims.lhsIdx
  rw [dif_pos (show (0 : Fin S2x128x4096.rank) ∈ DPV.lhsBatch by decide)]
  rfl
theorem DPV_lhs_1 (i : _) (q : DPV.contr.Idx) : (DPV.lhsIdx i q 1).val = (i 1).val := by
  unfold DotDims.lhsIdx
  rw [dif_neg (show ¬(1 : Fin S2x128x4096.rank) ∈ DPV.lhsBatch by decide), dif_pos (show (1 : Fin S2x128x4096.rank) ∈ DPV.lhsNonContracting by decide)]
  rfl
theorem DPV_lhs_2 (i : _) (q : DPV.contr.Idx) : (DPV.lhsIdx i q 2).val = (q ⟨0, by decide⟩).val :=
  DPV.lhsIdx_val_of_single rfl i q
theorem DPV_rhs_0 (i : _) (q : DPV.contr.Idx) : (DPV.rhsIdx i q 0).val = (i 0).val := by
  unfold DotDims.rhsIdx
  rw [dif_pos (show (0 : Fin S2x4096x64.rank) ∈ DPV.rhsBatch by decide)]
  rfl
theorem DPV_rhs_1 (i : _) (q : DPV.contr.Idx) : (DPV.rhsIdx i q 1).val = (q ⟨0, by decide⟩).val :=
  DPV.rhsIdx_val_of_single rfl i q
theorem DPV_rhs_2 (i : _) (q : DPV.contr.Idx) : (DPV.rhsIdx i q 2).val = (i 2).val := by
  unfold DotDims.rhsIdx
  rw [dif_neg (show ¬(2 : Fin S2x4096x64.rank) ∈ DPV.rhsBatch by decide), dif_pos (show (2 : Fin S2x4096x64.rank) ∈ DPV.rhsNonContracting by decide)]
  rfl

/-! ## The projection -/

theorem projDot_apply (v0 : FVec Ideal S512x1024 .f32) (v1 : FVec Ideal S1024x1024 .f32) (r : Fin 512) (e : Fin 1024) :
    matmul DP (some .fp32) v0 v1 (constant S512x1024 .f32 0x00000000#32) (ix2 r e)
      = ∑ k : Fin 1024, v0 (ix2 r k) * v1 (ix2 k e) := by
  simp only [matmul]
  rw [Ideal.matmul_constant_zero_apply, ← Equiv.sum_comp (contrEquiv1 DP 1024 rfl rfl).symm]
  refine Finset.sum_congr rfl fun k _ => ?_
  have hk := contrEquiv1_symm_val DP 1024 rfl rfl k
  have el : DP.lhsIdx (ix2 r e) ((contrEquiv1 DP 1024 rfl rfl).symm k) = ix2 r k := funext fun a => Fin.ext (by
    match a with
    | ⟨0, _⟩ => exact DP_lhs_0 _ _
    | ⟨1, _⟩ => exact (DP_lhs_1 _ _).trans hk)
  have er : DP.rhsIdx (ix2 r e) ((contrEquiv1 DP 1024 rfl rfl).symm k) = ix2 k e := funext fun a => Fin.ext (by
    match a with
    | ⟨0, _⟩ => exact (DP_rhs_0 _ _).trans hk
    | ⟨1, _⟩ => exact DP_rhs_1 _ _)
  rw [el, er]

/-! ## The scores of two heads -/

theorem qkDot_apply (q : FVec Ideal S2x128x64 .f32) (k : FVec Ideal S2x4096x64 .f32) (h : Fin 2) (r : Fin 128) (t : Fin 4096) :
    matmul DQK (some .fp32) q k (constant S2x128x4096 .f32 0x00000000#32) (ix3 h r t)
      = ∑ d : Fin 64, q (ix3 h r d) * k (ix3 h t d) := by
  simp only [matmul]
  rw [Ideal.matmul_constant_zero_apply, ← Equiv.sum_comp (contrEquiv1 DQK 64 rfl rfl).symm]
  refine Finset.sum_congr rfl fun d _ => ?_
  have hk := contrEquiv1_symm_val DQK 64 rfl rfl d
  have el : DQK.lhsIdx (ix3 h r t) ((contrEquiv1 DQK 64 rfl rfl).symm d) = ix3 h r d := funext fun a => Fin.ext (by
    match a with
    | ⟨0, _⟩ => exact DQK_lhs_0 _ _
    | ⟨1, _⟩ => exact DQK_lhs_1 _ _
    | ⟨2, _⟩ => exact (DQK_lhs_2 _ _).trans hk)
  have er : DQK.rhsIdx (ix3 h r t) ((contrEquiv1 DQK 64 rfl rfl).symm d) = ix3 h t d := funext fun a => Fin.ext (by
    match a with
    | ⟨0, _⟩ => exact DQK_rhs_0 _ _
    | ⟨1, _⟩ => exact DQK_rhs_1 _ _
    | ⟨2, _⟩ => exact (DQK_rhs_2 _ _).trans hk)
  rw [el, er]

/-! ## The weighted values of two heads -/

theorem pvDot_apply (p : FVec Ideal S2x128x4096 .f32) (v : FVec Ideal S2x4096x64 .f32) (h : Fin 2) (r : Fin 128) (d : Fin 64) :
    matmul DPV (some .fp32) p v (constant S2x128x64 .f32 0x00000000#32) (ix3 h r d)
      = ∑ t : Fin 4096, p (ix3 h r t) * v (ix3 h t d) := by
  simp only [matmul]
  rw [Ideal.matmul_constant_zero_apply, ← Equiv.sum_comp (contrEquiv1 DPV 4096 rfl rfl).symm]
  refine Finset.sum_congr rfl fun t _ => ?_
  have hk := contrEquiv1_symm_val DPV 4096 rfl rfl t
  have el : DPV.lhsIdx (ix3 h r d) ((contrEquiv1 DPV 4096 rfl rfl).symm t) = ix3 h r t := funext fun a => Fin.ext (by
    match a with
    | ⟨0, _⟩ => exact DPV_lhs_0 _ _
    | ⟨1, _⟩ => exact DPV_lhs_1 _ _
    | ⟨2, _⟩ => exact (DPV_lhs_2 _ _).trans hk)
  have er : DPV.rhsIdx (ix3 h r d) ((contrEquiv1 DPV 4096 rfl rfl).symm t) = ix3 h t d := funext fun a => Fin.ext (by
    match a with
    | ⟨0, _⟩ => exact DPV_rhs_0 _ _
    | ⟨1, _⟩ => exact (DPV_rhs_1 _ _).trans hk
    | ⟨2, _⟩ => exact DPV_rhs_2 _ _)
  rw [el, er]

end Cert.KernelIdeal.Dots

end
-- ==== Proof.Spec.lean ====
/-
  Multi-head self-attention as ONE function of the argument arrays, on the extended reals.

  For x : [4096, 1024] and weights wq, wk, wv : [1024, 1024], head h ∈ 0..15 owns the 64 columns
  64·h .. 64·h+63 of each projection: q_h(s, d) = Σ_k x(s, k) · wq(k, 64·h + d), likewise k_h, v_h.
  For a query row s the scores are sc(t) = (Σ_d q_h(s, d) · k_h(t, d)) · c with c the word 0x3E000000 (1/8),
  the weights are the softmax of that row taken with the row maximum subtracted,
  w(t) = exp(sc(t) − M) / Σ_u exp(sc(u) − M), M the fold of max over t from the word 0xFF800000 (−∞),
  and the result is out(s, 64·h + d) = Σ_t w(t) · v_h(t, d).

  Everything is stated row by row (one query row against all keys and values of a head), so that a block of query
  rows and the whole array instantiate the same definitions.  The one arithmetic fact kept here is that a quotient
  by the square root of 64 is the product with 1/8 on every extended real.
-/
import Idealize.ShloMosaic.PureOps.Ideal
import Idealize.ShloMosaic.Lib.ValueIdx

noncomputable section

namespace Cert.Attn

open Idealize.ShloMosaic Idealize.ShloMosaic.ValueIdx

/-- The column of a projection that lane `d` of head `h` reads: 64·h + d. -/
def col (h : Fin 16) (d : Fin 64) : Fin 1024 := ⟨64 * h.val + d.val, by omega⟩

/-- The head a column belongs to, and its lane inside the head. -/
def hd (e : Fin 1024) : Fin 16 := ⟨e.val / 64, by omega⟩
def lane (e : Fin 1024) : Fin 64 := ⟨e.val % 64, by omega⟩

theorem col_hd_lane (e : Fin 1024) : col (hd e) (lane e) = e := Fin.ext (by simp only [col, hd, lane]; omega)

/-- A projection split into heads: entry (h, s, d) of x · w is Σ_k x(s, k) · w(k, 64·h + d). -/
def projAt (x : (⟨2, ![4096, 1024]⟩ : Shape).Idx → EReal) (w : (⟨2, ![1024, 1024]⟩ : Shape).Idx → EReal)
    (h : Fin 16) (s : Fin 4096) (d : Fin 64) : EReal :=
  ∑ k : Fin 1024, x (ix2 s k) * w (ix2 k (col h d))

/-- The scale 1/8, as the word the kernel multiplies by. -/
def cScale : EReal := Ideal.ofBits .f32 0x3E000000#32
/-- −∞, as the word both row maxima start from. -/
def negInf : EReal := Ideal.ofBits .f32 0xFF800000#32

/-- One query row's scaled scores against every key row. -/
def scoreRow (qr : Fin 64 → EReal) (k : Fin 4096 → Fin 64 → EReal) (t : Fin 4096) : EReal :=
  (∑ d : Fin 64, qr d * k t d) * cScale

/-- The maximum of a row, folded from −∞. -/
def rowMax (f : Fin 4096 → EReal) : EReal := (Finset.univ : Finset (Fin 4096)).fold max negInf f

/-- exp of a row entry less the row's maximum. -/
def expRow (f : Fin 4096 → EReal) (t : Fin 4096) : EReal := Ideal.exp (f t - rowMax f)

/-- The softmax weight of entry `t` of a row. -/
def softRow (f : Fin 4096 → EReal) (t : Fin 4096) : EReal := Ideal.div (expRow f t) (∑ u : Fin 4096, expRow f u)

/-- One query row's attention output in lane `d`: the softmax-weighted sum of the value rows. -/
def attnRow (qr : Fin 64 → EReal) (k v : Fin 4096 → Fin 64 → EReal) (d : Fin 64) : EReal :=
  ∑ t : Fin 4096, softRow (scoreRow qr k) t * v t d

/-- The result at row `s`, column `e`, from the arguments. -/
def outAt (x : (⟨2, ![4096, 1024]⟩ : Shape).Idx → EReal) (wq wk wv : (⟨2, ![1024, 1024]⟩ : Shape).Idx → EReal)
    (s : Fin 4096) (e : Fin 1024) : EReal :=
  attnRow (fun d => projAt x wq (hd e) s d) (fun t d => projAt x wk (hd e) t d) (fun t d => projAt x wv (hd e) t d) (lane e)

/-- The whole result array. -/
def out (x : (⟨2, ![4096, 1024]⟩ : Shape).Idx → EReal) (wq wk wv : (⟨2, ![1024, 1024]⟩ : Shape).Idx → EReal) :
    (⟨2, ![4096, 1024]⟩ : Shape).Idx → EReal :=
  fun i => outAt x wq wk wv (i 0) (i 1)

/-- The word 0x42800000 is 64, the word 0x3E000000 is 1/8, and −∞ is `⊥`. -/
theorem ofBits_64 : Ideal.ofBits .f32 0x42800000#32 = ((64 : ℝ) : EReal) := by
  simp [Ideal.ofBits, Ideal.ieee, -EReal.coe_mul]; norm_num
theorem cScale_eq : cScale = (((1 / 8 : ℝ)) : EReal) := by
  simp [cScale, Ideal.ofBits, Ideal.ieee, -EReal.coe_mul]; norm_num
theorem negInf_eq : negInf = ⊥ := by simp [negInf, Ideal.ofBits, Ideal.ieee]

/-- From −∞ a maximum is its other operand. -/
theorem max_negInf (y : EReal) : max negInf y = y := by rw [negInf_eq]; exact max_bot_left y

/-- A quotient by the square root of 64 is the product with 1/8, on every extended real. -/
theorem div_sqrt64 (y : EReal) : Ideal.div y (Ideal.sqrt (Ideal.ofBits .f32 0x42800000#32)) = y * cScale := by
  have h8 : Real.sqrt 64 = 8 := by
    rw [show (64 : ℝ) = 8 ^ 2 by norm_num]; exact Real.sqrt_sq (by norm_num)
  have hs : Ideal.sqrt (((64 : ℝ)) : EReal) = ((8 : ℝ) : EReal) := by
    show (if (64 : ℝ) < 0 then (⊥ : EReal) else (Real.sqrt 64 : EReal)) = _
    rw [if_neg (by norm_num), h8]
  rw [ofBits_64, hs, cScale_eq, Ideal.div, if_neg (by exact_mod_cast (by norm_num : (8 : ℝ) ≠ 0)), ← EReal.coe_inv]
  norm_num

end Cert.Attn

end
-- ==== Proof.KRegion0.lean ====
/-
  The projection region: what its three output arrays hold after the run, as functions of the arrays it found.

  The region's grid has 8 points; point t stages rows 512·t .. 512·t + 511 of x and the three weight matrices
  whole, and writes back, for each of q, k and v, rows 512·t .. 512·t + 511 of all sixteen heads (a [16, 512, 64]
  block of a [16, 4096, 64] array).  The body stores, per output, the product of the x block with the weight,
  reshaped [512, 16, 64] and transposed to [16, 512, 64]: entry (h, r, d) is Σ_k x(r, k) · w(k, 64·h + d).  So block
  t of each output is block t of the head-split projection `headsOf x w`, and the eight blocks tile the array.
-/
import proofs.«176169_j12214886990248_2_alg».proof.Proof.Gen.KernelIdeal.Frame
import proofs.«176169_j12214886990248_2_alg».proof.Proof.KDots
import proofs.«176169_j12214886990248_2_alg».proof.Proof.Spec
import Idealize.ShloMosaic.Lib.Pipeline.Value

set_option maxRecDepth 16384

noncomputable section

namespace Cert.KernelIdeal.R0

open Cert.KernelIdeal Cert.KernelIdeal.Gen Cert.KernelIdeal.Dots Cert.Attn
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's payload at an index -/

/-- Entry (h, r, d) of the stored value: the product's entry (r, 64·h + d). -/
theorem projPay_apply (v0 : FVec Ideal S512x1024 .f32) (v1 : FVec Ideal S1024x1024 .f32) (h : Fin 16) (r : Fin 512) (d : Fin 64) :
    k0_pay1 v0 v1 (ix3 h r d) = ∑ k : Fin 1024, v0 (ix2 r k) * v1 (ix2 k (col h d)) := by
  show transpose S16x512x64 [1, 0, 2]
      (shapeCast S512x16x64 (matmul DP (some .fp32) v0 v1 (constant S512x1024 .f32 0x00000000#32)) shapeCasts_S512x1024_S512x16x64)
      transposes_S512x16x64_p1_0_2_S16x512x64 (ix3 h r d) = _
  refine (transpose_apply [1, 0, 2] _ transposes_S512x16x64_p1_0_2_S16x512x64 (ix3 h r d) (ix3 r h d) (fun b => match b with
    | ⟨0, _⟩ => rfl
    | ⟨1, _⟩ => rfl
    | ⟨2, _⟩ => rfl)).trans ?_
  refine (shapeCast_apply _ shapeCasts_S512x1024_S512x16x64 (ix3 r h d) (ix2 r (col h d)) ?_).trans ?_
  · rewrite [Shape.rowMajor_val_two, Shape.rowMajor_val_three]
    show r.val * 1024 + (64 * h.val + d.val) = (r.val * 16 + h.val) * 64 + d.val
    omega
  · exact projDot_apply v0 v1 r (col h d)

/-- The three outputs' payloads are one function of the x block and a weight. -/
theorem pay2_eq (v0 : Vec Ideal S512x1024 .f32) (v2 : Vec Ideal S1024x1024 .f32) : k0_pay2 v0 v2 = k0_pay1 v0 v2 := rfl
theorem pay3_eq (v0 : Vec Ideal S512x1024 .f32) (v3 : Vec Ideal S1024x1024 .f32) : k0_pay3 v0 v3 = k0_pay1 v0 v3 := rfl

/-! ## The whole-array function, and the payload of blocks read through their windows -/

/-- The head-split projection of x by w: entry (h, s, d) is Σ_k x(s, k) · w(k, 64·h + d). -/
def headsOf (X : S4096x1024.Idx → EReal) (W : S1024x1024.Idx → EReal) : S16x4096x64.Idx → EReal :=
  fun i => projAt X W (i 0) (i 1) (i 2)

theorem pay_of_blocks (x0 : Vec Ideal S512x1024 .f32) (x1 : Vec Ideal S1024x1024 .f32)
    (X : S4096x1024.Idx → EReal) (W : S1024x1024.Idx → EReal) (tv : Nat)
    (h0 : ∀ (r : Fin 512) (k : Fin 1024) (s : Fin 4096), s.val = tv * 512 + r.val → x0 (ix2 r k) = X (ix2 s k))
    (h1 : ∀ (k e : Fin 1024), x1 (ix2 k e) = W (ix2 k e))
    (y : S16x512x64.Idx) (i : S16x4096x64.Idx) (e0 : (i 0).val = (y 0).val) (e1 : (i 1).val = tv * 512 + (y 1).val)
    (e2 : (i 2).val = (y 2).val) :
    k0_pay1 x0 x1 y = headsOf X W i := by
  obtain ⟨h, r, d, rfl⟩ : ∃ (h : Fin 16) (r : Fin 512) (d : Fin 64), y = ix3 h r d := ⟨y 0, y 1, y 2, eq_ix3 y⟩
  obtain ⟨h', s, d', rfl⟩ : ∃ (h' : Fin 16) (s : Fin 4096) (d' : Fin 64), i = ix3 h' s d' := ⟨i 0, i 1, i 2, eq_ix3 i⟩
  obtain rfl : h' = h := Fin.ext e0
  obtain rfl : d' = d := Fin.ext e2
  rw [projPay_apply]
  show _ = projAt X W h' s d'
  unfold projAt
  exact Finset.sum_congr rfl fun k _ => by rw [h0 r k s e1, h1 k (col h' d')]

/-! ## The region at the contents it is entered with -/

variable (V : (c : Dev nD) → (b : Ref sig .tc) → Buf (Elt Ideal) ((c : Thread nD τ).loc b))

/-- The printed index maps over the grid: x's block and each output's block move with the point along the row
    axis; the weights are staged whole. -/
theorem idx_x : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_out4 : ∀ t : Fin cfg0.N, win0_4.index t (0 : Fin 3) = 0 ∧ win0_4.index t (1 : Fin 3) = t.val ∧ win0_4.index t (2 : Fin 3) = 0 :=
  (by decide +kernel : ∀ t : Fin grid0.N, _)
theorem idx_out5 : ∀ t : Fin cfg0.N, win0_5.index t (0 : Fin 3) = 0 ∧ win0_5.index t (1 : Fin 3) = t.val ∧ win0_5.index t (2 : Fin 3) = 0 :=
  (by decide +kernel : ∀ t : Fin grid0.N, _)
theorem idx_out6 : ∀ t : Fin cfg0.N, win0_6.index t (0 : Fin 3) = 0 ∧ win0_6.index t (1 : Fin 3) = t.val ∧ win0_6.index t (2 : Fin 3) = 0 :=
  (by decide +kernel : ∀ t : Fin grid0.N, _)

/-- x's block at point t: rows 512·t .. -/
theorem iblk_x (c : Dev nD) (t : Fin cfg0.N) (r : Fin 512) (k : Fin 1024) (s : Fin 4096) (hs : s.val = t.val * 512 + r.val) :
    (iblk0 V c 0 t : Vec Ideal S512x1024 .f32) (ix2 r k) = (V c main_arg0 : S4096x1024.Idx → EReal) (ix2 s k) := by
  obtain ⟨f0, f1⟩ := idx_x t
  unfold iblk0
  rw [View.read_apply]
  show V c main_arg0 _ = V c main_arg0 _
  congr 1
  funext a; apply Fin.ext
  match a with
  | ⟨0, _⟩ => show win0_0.index t (0 : Fin 2) * 512 + 1 * r.val = s.val; rw [f0, hs]; omega
  | ⟨1, _⟩ => show win0_0.index t (1 : Fin 2) * 1024 + 1 * k.val = k.val; rw [f1]; omega

/-- Weight window 1's block at every point is the array. -/
theorem iblk_w1 (c : Dev nD) (t : Fin cfg0.N) (k e : Fin 1024) :
    (iblk0 V c 1 t : Vec Ideal S1024x1024 .f32) (ix2 k e) = (V c main_arg1 : S1024x1024.Idx → EReal) (ix2 k e) := by
  obtain ⟨f0, f1⟩ := idx_w1 t
  unfold iblk0
  rw [View.read_apply]
  show V c main_arg1 _ = V c main_arg1 _
  congr 1
  funext a; apply Fin.ext
  match a with
  | ⟨0, _⟩ => show win0_1.index t (0 : Fin 2) * 1024 + 1 * k.val = k.val; rw [f0]; omega
  | ⟨1, _⟩ => show win0_1.index t (1 : Fin 2) * 1024 + 1 * e.val = e.val; rw [f1]; omega

/-- Weight window 2's block at every point is the array. -/
theorem iblk_w2 (c : Dev nD) (t : Fin cfg0.N) (k e : Fin 1024) :
    (iblk0 V c 2 t : Vec Ideal S1024x1024 .f32) (ix2 k e) = (V c main_arg2 : S1024x1024.Idx → EReal) (ix2 k e) := by
  obtain ⟨f0, f1⟩ := idx_w2 t
  unfold iblk0
  rw [View.read_apply]
  show V c main_arg2 _ = V c main_arg2 _
  congr 1
  funext a; apply Fin.ext
  match a with
  | ⟨0, _⟩ => show win0_2.index t (0 : Fin 2) * 1024 + 1 * k.val = k.val; rw [f0]; omega
  | ⟨1, _⟩ => show win0_2.index t (1 : Fin 2) * 1024 + 1 * e.val = e.val; rw [f1]; omega

/-- Weight window 3's block at every point is the array. -/
theorem iblk_w3 (c : Dev nD) (t : Fin cfg0.N) (k e : Fin 1024) :
    (iblk0 V c 3 t : Vec Ideal S1024x1024 .f32) (ix2 k e) = (V c main_arg3 : S1024x1024.Idx → EReal) (ix2 k e) := by
  obtain ⟨f0, f1⟩ := idx_w3 t
  unfold iblk0
  rw [View.read_apply]
  show V c main_arg3 _ = V c main_arg3 _
  congr 1
  funext a; apply Fin.ext
  match a with
  | ⟨0, _⟩ => show win0_3.index t (0 : Fin 2) * 1024 + 1 * k.val = k.val; rw [f0]; omega
  | ⟨1, _⟩ => show win0_3.index t (1 : Fin 2) * 1024 + 1 * e.val = e.val; rw [f1]; omega

/-! ## The three outputs -/

/-- WHAT POINT t WRITES BACK through window 4 is block t of the head-split projection by `main_arg1`. -/
theorem flushed4_eq (c : Dev nD) (t : Fin cfg0.N) :
    (dat0 V c).flushed 4 t = ((cfg0.win 4).blk t).view.read (Elt Ideal) (headsOf (V c main_arg0) (V c main_arg1)) := by
  show (cfg0.win 4).cut (grid0.coords t) ((dat0 V c).after 4 t) = _
  rw [after0_4]
  unfold out0_4
  rw [View.canon_unit_zero hz3]
  simp only [View.ld_unit_zero (S := S512x1024) hz2, View.ld_unit_zero (S := S1024x1024) hz2]
  obtain ⟨g0, g1, g2⟩ := idx_out4 t
  funext y
  show k0_pay1 (iblk0 V c 0 t) (iblk0 V c 1 t) y
    = headsOf (V c main_arg0) (V c main_arg1) (((cfg0.win 4).blk t).view.emb y)
  refine pay_of_blocks (iblk0 V c 0 t) (iblk0 V c 1 t) _ _ t.val
    (fun r k s hs => iblk_x V c t r k s hs) (fun k e => iblk_w1 V c t k e) y _ ?_ ?_ ?_
  · show win0_4.index t (0 : Fin 3) * 16 + 1 * (y 0).val = (y 0).val; rw [g0]; omega
  · show win0_4.index t (1 : Fin 3) * 512 + 1 * (y 1).val = t.val * 512 + (y 1).val; rw [g1]; omega
  · show win0_4.index t (2 : Fin 3) * 64 + 1 * (y 2).val = (y 2).val; rw [g2]; omega

theorem mem_blk4 (t : Fin cfg0.N) (i : S16x4096x64.Idx) :
    i ∈ ((cfg0.win 4).blk t).view.set ↔ ∀ a : Fin 3, win0_4.index t a * S16x512x64.size a ≤ (i a).val
      ∧ (i a).val < win0_4.index t a * S16x512x64.size a + S16x512x64.size a := by
  show i ∈ ((View.whole main_v0_0).slice (win0_4.rect t)).set ↔ _
  rw [View.set_slice_whole, Rect.mem_set_unit]
  exact Iff.rfl

/-- The eight blocks tile the array: row s of every head is in block s / 512. -/
theorem cover4 (i : S16x4096x64.Idx) : ∃ t : Fin cfg0.N, (cfg0.win 4).flush t = true ∧ i ∈ ((cfg0.win 4).blk t).view.set := by
  have hi0 : (i 0).val < 16 := (i 0).isLt
  have hi1 : (i 1).val < 4096 := (i 1).isLt
  have hi2 : (i 2).val < 64 := (i 2).isLt
  have hN : cfg0.N = 8 := N_0
  refine ⟨⟨(i 1).val / 512, by rw [hN]; omega⟩, flush0_4 _, ?_⟩
  obtain ⟨g0, g1, g2⟩ := idx_out4 ⟨(i 1).val / 512, by rw [hN]; omega⟩
  rw [mem_blk4]
  intro a
  match a with
  | ⟨0, _⟩ =>
    show win0_4.index _ (0 : Fin 3) * 16 ≤ (i 0).val ∧ (i 0).val < win0_4.index _ (0 : Fin 3) * 16 + 16
    rw [g0]; omega
  | ⟨1, _⟩ =>
    show win0_4.index _ (1 : Fin 3) * 512 ≤ (i 1).val ∧ (i 1).val < win0_4.index _ (1 : Fin 3) * 512 + 512
    rw [g1]; show (i 1).val / 512 * 512 ≤ (i 1).val ∧ (i 1).val < (i 1).val / 512 * 512 + 512; omega
  | ⟨2, _⟩ =>
    show win0_4.index _ (2 : Fin 3) * 64 ≤ (i 2).val ∧ (i 2).val < win0_4.index _ (2 : Fin 3) * 64 + 64
    rw [g2]; omega

/-- THE ARRAY window 4 writes, after the region: the head-split projection of x by `main_arg1`. -/
theorem final4 (c : Dev nD) : (dat0 V c).arrAt 4 cfg0.N = headsOf (V c main_arg0) (V c main_arg1) :=
  (dat0 V c).arrAt_eq_of_cover 4 _ (fun t _ => flushed4_eq V c t) cover4

/-- WHAT POINT t WRITES BACK through window 5 is block t of the head-split projection by `main_arg2`. -/
theorem flushed5_eq (c : Dev nD) (t : Fin cfg0.N) :
    (dat0 V c).flushed 5 t = ((cfg0.win 5).blk t).view.read (Elt Ideal) (headsOf (V c main_arg0) (V c main_arg2)) := by
  show (cfg0.win 5).cut (grid0.coords t) ((dat0 V c).after 5 t) = _
  rw [after0_5]
  unfold out0_5
  rw [View.canon_unit_zero hz3]
  simp only [View.ld_unit_zero (S := S512x1024) hz2, View.ld_unit_zero (S := S1024x1024) hz2]
  obtain ⟨g0, g1, g2⟩ := idx_out5 t
  funext y
  show k0_pay1 (iblk0 V c 0 t) (iblk0 V c 2 t) y
    = headsOf (V c main_arg0) (V c main_arg2) (((cfg0.win 5).blk t).view.emb y)
  refine pay_of_blocks (iblk0 V c 0 t) (iblk0 V c 2 t) _ _ t.val
    (fun r k s hs => iblk_x V c t r k s hs) (fun k e => iblk_w2 V c t k e) y _ ?_ ?_ ?_
  · show win0_5.index t (0 : Fin 3) * 16 + 1 * (y 0).val = (y 0).val; rw [g0]; omega
  · show win0_5.index t (1 : Fin 3) * 512 + 1 * (y 1).val = t.val * 512 + (y 1).val; rw [g1]; omega
  · show win0_5.index t (2 : Fin 3) * 64 + 1 * (y 2).val = (y 2).val; rw [g2]; omega

theorem mem_blk5 (t : Fin cfg0.N) (i : S16x4096x64.Idx) :
    i ∈ ((cfg0.win 5).blk t).view.set ↔ ∀ a : Fin 3, win0_5.index t a * S16x512x64.size a ≤ (i a).val
      ∧ (i a).val < win0_5.index t a * S16x512x64.size a + S16x512x64.size a := by
  show i ∈ ((View.whole main_v0_1).slice (win0_5.rect t)).set ↔ _
  rw [View.set_slice_whole, Rect.mem_set_unit]
  exact Iff.rfl

/-- The eight blocks tile the array: row s of every head is in block s / 512. -/
theorem cover5 (i : S16x4096x64.Idx) : ∃ t : Fin cfg0.N, (cfg0.win 5).flush t = true ∧ i ∈ ((cfg0.win 5).blk t).view.set := by
  have hi0 : (i 0).val < 16 := (i 0).isLt
  have hi1 : (i 1).val < 4096 := (i 1).isLt
  have hi2 : (i 2).val < 64 := (i 2).isLt
  have hN : cfg0.N = 8 := N_0
  refine ⟨⟨(i 1).val / 512, by rw [hN]; omega⟩, flush0_5 _, ?_⟩
  obtain ⟨g0, g1, g2⟩ := idx_out5 ⟨(i 1).val / 512, by rw [hN]; omega⟩
  rw [mem_blk5]
  intro a
  match a with
  | ⟨0, _⟩ =>
    show win0_5.index _ (0 : Fin 3) * 16 ≤ (i 0).val ∧ (i 0).val < win0_5.index _ (0 : Fin 3) * 16 + 16
    rw [g0]; omega
  | ⟨1, _⟩ =>
    show win0_5.index _ (1 : Fin 3) * 512 ≤ (i 1).val ∧ (i 1).val < win0_5.index _ (1 : Fin 3) * 512 + 512
    rw [g1]; show (i 1).val / 512 * 512 ≤ (i 1).val ∧ (i 1).val < (i 1).val / 512 * 512 + 512; omega
  | ⟨2, _⟩ =>
    show win0_5.index _ (2 : Fin 3) * 64 ≤ (i 2).val ∧ (i 2).val < win0_5.index _ (2 : Fin 3) * 64 + 64
    rw [g2]; omega

/-- THE ARRAY window 5 writes, after the region: the head-split projection of x by `main_arg2`. -/
theorem final5 (c : Dev nD) : (dat0 V c).arrAt 5 cfg0.N = headsOf (V c main_arg0) (V c main_arg2) :=
  (dat0 V c).arrAt_eq_of_cover 5 _ (fun t _ => flushed5_eq V c t) cover5

/-- WHAT POINT t WRITES BACK through window 6 is block t of the head-split projection by `main_arg3`. -/
theorem flushed6_eq (c : Dev nD) (t : Fin cfg0.N) :
    (dat0 V c).flushed 6 t = ((cfg0.win 6).blk t).view.read (Elt Ideal) (headsOf (V c main_arg0) (V c main_arg3)) := by
  show (cfg0.win 6).cut (grid0.coords t) ((dat0 V c).after 6 t) = _
  rw [after0_6]
  unfold out0_6
  rw [View.canon_unit_zero hz3]
  simp only [View.ld_unit_zero (S := S512x1024) hz2, View.ld_unit_zero (S := S1024x1024) hz2]
  obtain ⟨g0, g1, g2⟩ := idx_out6 t
  funext y
  show k0_pay1 (iblk0 V c 0 t) (iblk0 V c 3 t) y
    = headsOf (V c main_arg0) (V c main_arg3) (((cfg0.win 6).blk t).view.emb y)
  refine pay_of_blocks (iblk0 V c 0 t) (iblk0 V c 3 t) _ _ t.val
    (fun r k s hs => iblk_x V c t r k s hs) (fun k e => iblk_w3 V c t k e) y _ ?_ ?_ ?_
  · show win0_6.index t (0 : Fin 3) * 16 + 1 * (y 0).val = (y 0).val; rw [g0]; omega
  · show win0_6.index t (1 : Fin 3) * 512 + 1 * (y 1).val = t.val * 512 + (y 1).val; rw [g1]; omega
  · show win0_6.index t (2 : Fin 3) * 64 + 1 * (y 2).val = (y 2).val; rw [g2]; omega

theorem mem_blk6 (t : Fin cfg0.N) (i : S16x4096x64.Idx) :
    i ∈ ((cfg0.win 6).blk t).view.set ↔ ∀ a : Fin 3, win0_6.index t a * S16x512x64.size a ≤ (i a).val
      ∧ (i a).val < win0_6.index t a * S16x512x64.size a + S16x512x64.size a := by
  show i ∈ ((View.whole main_v0_2).slice (win0_6.rect t)).set ↔ _
  rw [View.set_slice_whole, Rect.mem_set_unit]
  exact Iff.rfl

/-- The eight blocks tile the array: row s of every head is in block s / 512. -/
theorem cover6 (i : S16x4096x64.Idx) : ∃ t : Fin cfg0.N, (cfg0.win 6).flush t = true ∧ i ∈ ((cfg0.win 6).blk t).view.set := by
  have hi0 : (i 0).val < 16 := (i 0).isLt
  have hi1 : (i 1).val < 4096 := (i 1).isLt
  have hi2 : (i 2).val < 64 := (i 2).isLt
  have hN : cfg0.N = 8 := N_0
  refine ⟨⟨(i 1).val / 512, by rw [hN]; omega⟩, flush0_6 _, ?_⟩
  obtain ⟨g0, g1, g2⟩ := idx_out6 ⟨(i 1).val / 512, by rw [hN]; omega⟩
  rw [mem_blk6]
  intro a
  match a with
  | ⟨0, _⟩ =>
    show win0_6.index _ (0 : Fin 3) * 16 ≤ (i 0).val ∧ (i 0).val < win0_6.index _ (0 : Fin 3) * 16 + 16
    rw [g0]; omega
  | ⟨1, _⟩ =>
    show win0_6.index _ (1 : Fin 3) * 512 ≤ (i 1).val ∧ (i 1).val < win0_6.index _ (1 : Fin 3) * 512 + 512
    rw [g1]; show (i 1).val / 512 * 512 ≤ (i 1).val ∧ (i 1).val < (i 1).val / 512 * 512 + 512; omega
  | ⟨2, _⟩ =>
    show win0_6.index _ (2 : Fin 3) * 64 ≤ (i 2).val ∧ (i 2).val < win0_6.index _ (2 : Fin 3) * 64 + 64
    rw [g2]; omega

/-- THE ARRAY window 6 writes, after the region: the head-split projection of x by `main_arg3`. -/
theorem final6 (c : Dev nD) : (dat0 V c).arrAt 6 cfg0.N = headsOf (V c main_arg0) (V c main_arg3) :=
  (dat0 V c).arrAt_eq_of_cover 6 _ (fun t _ => flushed6_eq V c t) cover6

end Cert.KernelIdeal.R0

end
-- ==== Proof.KRows.lean ====
/-
  The attention kernel's row operations on two heads' [2, 128, 4096] score tile, read at an index on the extended
  reals: the lane maximum along the key axis at (h, r) is the fold of max over t from the accumulator's word, the
  lane sum there is the plain sum over t; a [2, 128] array kept as a [2, 128, 1] column and broadcast along the
  key axis reads its entry (h, r) at every (h, r, t); and two heads' [2, 128, 64] results, transposed to
  [128, 2, 64] and flattened to [128, 128], read at (r, c) the entry (c / 64, r, c % 64).
-/
import proofs.«176169_j12214886990248_2_alg».proof.Proof.Gen.KernelIdeal
import Idealize.ShloMosaic.PureOps.Ideal.Laws
import Idealize.ShloMosaic.Lib.ValueIdx
import Idealize.ShloMosaic.Lib.Pipeline.Value

noncomputable section

namespace Cert.KernelIdeal.Rows

open Cert.KernelIdeal Cert.KernelIdeal.Gen Idealize.ShloMosaic Idealize.ShloMosaic.ValueIdx

/-- The reduced index (h, r) with key coordinate `t` put back is (h, r, t). -/
theorem lift_ix3 (hr : S2x128x4096.Reduces [2] S2x128) (h : Fin 2) (r : Fin 128) (t : Fin (S2x128x4096.size 2)) :
    hr.lift (ix2 h r) t = ix3 h r (⟨t.val, t.isLt⟩ : Fin 4096) := by
  funext c; apply Fin.ext
  match c with
  | ⟨0, _⟩ => rfl
  | ⟨1, _⟩ => rfl
  | ⟨2, _⟩ => rfl

/-- The lane maximum along the key axis: the fold of max over the keys from the accumulator's word. -/
theorem rowMax_apply (x : FVec Ideal S2x128x4096 .f32) (hφ : FKind.Formats .f32)
    (hacc : (0xFF800000#32 : BitVec 32) = FKind.maximumf.neutral .f32 hφ) (h : Fin 2) (r : Fin 128) :
    multiReduction .maximumf [2] S2x128 x 0xFF800000#32 reduces_S2x128x4096_S2x128 hφ hacc (ix2 h r)
      = (Finset.univ : Finset (Fin 4096)).fold max (Ideal.ofBits .f32 0xFF800000#32) (fun t => x (ix3 h r t)) := by
  refine (Ideal.multiReduction_maximumf_single x 0xFF800000#32 reduces_S2x128x4096_S2x128 hφ hacc (ix2 h r)).trans ?_
  have hf : (x ∘ reduces_S2x128x4096_S2x128.lift (ix2 h r)) = fun t : Fin 4096 => x (ix3 h r t) :=
    funext fun t => congrArg x (lift_ix3 reduces_S2x128x4096_S2x128 h r t)
  exact congrArg (fun f => Finset.fold max (Ideal.ofBits .f32 0xFF800000#32) f (Finset.univ : Finset (Fin 4096))) hf

/-- The lane sum along the key axis: the plain sum over the keys. -/
theorem rowSum_apply (x : FVec Ideal S2x128x4096 .f32) (hφ : FKind.Formats .f32)
    (hacc : (0x00000000#32 : BitVec 32) = FKind.add.neutral .f32 hφ) (h : Fin 2) (r : Fin 128) :
    multiReduction .add [2] S2x128 x 0x00000000#32 reduces_S2x128x4096_S2x128 hφ hacc (ix2 h r)
      = ∑ t : Fin 4096, x (ix3 h r t) := by
  refine (Ideal.multiReduction_add_single x 0x00000000#32 reduces_S2x128x4096_S2x128 hφ hacc (ix2 h r)).trans ?_
  exact Finset.sum_congr rfl fun t _ => congrArg x (lift_ix3 reduces_S2x128x4096_S2x128 h r t)

/-- A [2, 128] array kept as a column and broadcast along the key axis reads its entry (h, r). -/
theorem bcastCol_apply {α : Type} (v : S2x128.Idx → α) (h : Fin 2) (r : Fin 128) (t : Fin 4096) :
    broadcastTo S2x128x4096 (shapeCast S2x128x1 v shapeCasts_S2x128_S2x128x1) broadcasts_S2x128x1_S2x128x4096 (ix3 h r t)
      = v (ix2 h r) := by
  refine (broadcastTo_apply _ broadcasts_S2x128x1_S2x128x4096 (ix3 h r t) (ix3 h r (0 : Fin 1)) (fun a => by
    match a with
    | ⟨0, _⟩ => rfl
    | ⟨1, _⟩ => rfl
    | ⟨2, _⟩ => rfl)).trans ?_
  refine shapeCast_apply v shapeCasts_S2x128_S2x128x1 (ix3 h r (0 : Fin 1)) (ix2 h r) ?_
  rewrite [Shape.rowMajor_val_two, Shape.rowMajor_val_three]
  show h.val * 128 + r.val = (h.val * 128 + r.val) * 1 + 0
  omega

/-- Two heads' results laid side by side: entry (r, c) of the flattened transpose is entry (c / 64, r, c % 64). -/
theorem headsFlat_apply {α : Type} (o : S2x128x64.Idx → α) (r : Fin 128) (c : Fin 128) :
    shapeCast S128x128 (transpose S128x2x64 [1, 0, 2] o transposes_S2x128x64_p1_0_2_S128x2x64) shapeCasts_S128x2x64_S128x128 (ix2 r c)
      = o (ix3 (⟨c.val / 64, by omega⟩ : Fin 2) r (⟨c.val % 64, by omega⟩ : Fin 64)) := by
  refine (shapeCast_apply _ shapeCasts_S128x2x64_S128x128 (ix2 r c)
    (ix3 r (⟨c.val / 64, by omega⟩ : Fin 2) (⟨c.val % 64, by omega⟩ : Fin 64)) ?_).trans ?_
  · rewrite [Shape.rowMajor_val_two, Shape.rowMajor_val_three]
    show (r.val * 2 + c.val / 64) * 64 + c.val % 64 = r.val * 128 + c.val
    omega
  · exact transpose_apply [1, 0, 2] o transposes_S2x128x64_p1_0_2_S128x2x64 _ _ (fun b => match b with
      | ⟨0, _⟩ => rfl
      | ⟨1, _⟩ => rfl
      | ⟨2, _⟩ => rfl)

end Cert.KernelIdeal.Rows

end
-- ==== Proof.KChunk.lean ====
/-
  One head pair of the attention kernel's body as a function of its three loaded blocks, read at an index.

  The body handles the sixteen heads two at a time.  For a pair it loads q : [2, 128, 64] (128 query rows of the
  two heads), k and v : [2, 4096, 64] (all key and value rows of the two heads) and stores a [128, 128] tile whose
  entry (r, c) belongs to head c / 64 of the pair and lane c % 64: with sc(t) = (Σ_d q(h, r, d) · k(h, t, d)) · 1/8,
  M the maximum of sc folded from −∞, p(t) = exp(sc(t) − M), the tile holds Σ_t (p(t) / Σ_u p(u)) · v(h, t, c % 64)
  — the softmax-weighted sum of the value rows, `Cert.Attn.attnRow` of the query row and the head's keys and values.

  The eight pairs' stored values are written as differently grouped terms of the same operations; every one of
  them is the same composition `pair`, by unfolding.
-/
import proofs.«176169_j12214886990248_2_alg».proof.Proof.Gen.KernelIdeal.Skeleton
import proofs.«176169_j12214886990248_2_alg».proof.Proof.KDots
import proofs.«176169_j12214886990248_2_alg».proof.Proof.KRows
import proofs.«176169_j12214886990248_2_alg».proof.Proof.Spec

noncomputable section

namespace Cert.KernelIdeal.Pair

open Cert.KernelIdeal Cert.KernelIdeal.Gen Cert.KernelIdeal.Dots Cert.KernelIdeal.Rows Cert.Attn
open Idealize.ShloMosaic Idealize.ShloMosaic.ValueIdx

/-! ## The composition -/

/-- The scaled scores of the pair: q · kᵀ per head, times the word 1/8. -/
def scores (q : FVec Ideal S2x128x64 .f32) (k : FVec Ideal S2x4096x64 .f32) : FVec Ideal S2x128x4096 .f32 :=
  mulf (matmul DQK (some .fp32) q k (constant S2x128x4096 .f32 0x00000000#32))
    (broadcast S2x128x4096 (Scalar.ofBits .f32 0x3E000000#32))

/-- The row maxima, kept as a column. -/
def rmax (sc : FVec Ideal S2x128x4096 .f32) : FVec Ideal S2x128x1 .f32 :=
  shapeCast S2x128x1 (multiReduction .maximumf [2] S2x128 sc 0xFF800000#32 reduces_S2x128x4096_S2x128 (.inl rfl) rfl)
    shapeCasts_S2x128_S2x128x1

/-- exp of the scores less a column broadcast along the key axis. -/
def pexp (sc : FVec Ideal S2x128x4096 .f32) (m : FVec Ideal S2x128x1 .f32) : FVec Ideal S2x128x4096 .f32 :=
  exp (subf sc (broadcastTo S2x128x4096 m broadcasts_S2x128x1_S2x128x4096))

/-- The normalised weights times the values, the two heads laid side by side. -/
def fin (v : FVec Ideal S2x4096x64 .f32) (p : FVec Ideal S2x128x4096 .f32) : FVec Ideal S128x128 .f32 :=
  shapeCast S128x128 (transpose S128x2x64 [1, 0, 2]
    (matmul DPV (some .fp32)
      (divf p (broadcastTo S2x128x4096
        (shapeCast S2x128x1 (multiReduction .add [2] S2x128 p 0x00000000#32 reduces_S2x128x4096_S2x128 (.inl rfl) rfl)
          shapeCasts_S2x128_S2x128x1) broadcasts_S2x128x1_S2x128x4096))
      v (constant S2x128x64 .f32 0x00000000#32)) transposes_S2x128x64_p1_0_2_S128x2x64) shapeCasts_S128x2x64_S128x128

/-- The identity casts the loads go through. -/
def cq (q : FVec Ideal S2x128x64 .f32) : FVec Ideal S2x128x64 .f32 := shapeCast S2x128x64 q shapeCasts_S2x128x64_S2x128x64
def ckv (k : FVec Ideal S2x4096x64 .f32) : FVec Ideal S2x4096x64 .f32 := shapeCast S2x4096x64 k shapeCasts_S2x4096x64_S2x4096x64

/-- One head pair's tile from its three loaded blocks. -/
def pair (q : FVec Ideal S2x128x64 .f32) (k v : FVec Ideal S2x4096x64 .f32) : FVec Ideal S128x128 .f32 :=
  fin (ckv v) (pexp (scores (cq q) (ckv k)) (rmax (scores (cq q) (ckv k))))

/-! ## Every pair's printed payloads are that composition -/

theorem pay2_eq (q : Vec Ideal S2x128x64 .f32) (k v : Vec Ideal S2x4096x64 .f32) : k1_pay2 q k v = pair q k v := rfl
theorem pay5_eq (q : Vec Ideal S2x128x64 .f32) (k v : Vec Ideal S2x4096x64 .f32) : k1_pay5 (k1_pay3 v) (k1_pay4 q k) = pair q k v := rfl
theorem pay6_eq (q : Vec Ideal S2x128x64 .f32) (k v : Vec Ideal S2x4096x64 .f32) : k1_pay6 q k v = pair q k v := rfl
theorem pay7_eq (q : Vec Ideal S2x128x64 .f32) (k v : Vec Ideal S2x4096x64 .f32) : k1_pay7 q k v = pair q k v := rfl
theorem pay11_eq (q : Vec Ideal S2x128x64 .f32) (k v : Vec Ideal S2x4096x64 .f32) :
    k1_pay11 (k1_pay8 v) (k1_pay9 q k) (k1_pay10 q k) = pair q k v := rfl
theorem pay12_eq (q : Vec Ideal S2x128x64 .f32) (k v : Vec Ideal S2x4096x64 .f32) : k1_pay12 q k v = pair q k v := rfl
theorem pay14_eq (q : Vec Ideal S2x128x64 .f32) (k v : Vec Ideal S2x4096x64 .f32) : k1_pay14 (k1_pay13 q) k v = pair q k v := rfl
theorem pay1_eq (q : Vec Ideal S2x128x64 .f32) (k v : Vec Ideal S2x4096x64 .f32) : k1_pay1 (k1_pay15 v) (k1_pay16 q k) = pair q k v := rfl

/-! ## The composition at an index -/

theorem scores_apply (q : FVec Ideal S2x128x64 .f32) (k : FVec Ideal S2x4096x64 .f32) (h : Fin 2) (r : Fin 128) (t : Fin 4096) :
    scores q k (ix3 h r t) = scoreRow (fun d => q (ix3 h r d)) (fun t d => k (ix3 h t d)) t := by
  unfold scores scoreRow
  show matmul DQK (some .fp32) q k (constant S2x128x4096 .f32 0x00000000#32) (ix3 h r t) * cScale = _
  rw [qkDot_apply]

theorem pexp_apply (sc : FVec Ideal S2x128x4096 .f32) (h : Fin 2) (r : Fin 128) (t : Fin 4096) :
    pexp sc (rmax sc) (ix3 h r t) = expRow (fun t => sc (ix3 h r t)) t := by
  unfold pexp rmax expRow rowMax negInf
  refine congrArg Ideal.exp (congrArg (sc (ix3 h r t) - ·) ?_)
  exact (bcastCol_apply _ h r t).trans (rowMax_apply sc _ _ h r)

theorem fin_apply (v : FVec Ideal S2x4096x64 .f32) (p : FVec Ideal S2x128x4096 .f32) (r c : Fin 128) :
    fin v p (ix2 r c)
      = ∑ t : Fin 4096, Ideal.div (p (ix3 (⟨c.val / 64, by omega⟩ : Fin 2) r t)) (∑ u : Fin 4096, p (ix3 (⟨c.val / 64, by omega⟩ : Fin 2) r u))
          * v (ix3 (⟨c.val / 64, by omega⟩ : Fin 2) t (⟨c.val % 64, by omega⟩ : Fin 64)) := by
  unfold fin
  rw [headsFlat_apply, pvDot_apply]
  refine Finset.sum_congr rfl fun t _ => ?_
  refine congrArg (· * _) ?_
  refine congrArg (Ideal.div (p _)) ?_
  exact (bcastCol_apply _ _ r t).trans (rowSum_apply p _ _ _ r)

/-- THE PAIR AT AN INDEX: entry (r, c) of the tile is the attention row of query row r of head c / 64 of the pair
    against that head's keys and values, in lane c % 64. -/
theorem pair_apply (q : FVec Ideal S2x128x64 .f32) (k v : FVec Ideal S2x4096x64 .f32) (r c : Fin 128) :
    pair q k v (ix2 r c)
      = attnRow (fun d => q (ix3 (⟨c.val / 64, by omega⟩ : Fin 2) r d))
          (fun t d => k (ix3 (⟨c.val / 64, by omega⟩ : Fin 2) t d))
          (fun t d => v (ix3 (⟨c.val / 64, by omega⟩ : Fin 2) t d)) (⟨c.val % 64, by omega⟩ : Fin 64) := by
  unfold pair
  rw [fin_apply]
  simp only [cq, ckv, shapeCast_self, pexp_apply, scores_apply]
  rfl

end Cert.KernelIdeal.Pair

end
-- ==== Proof.KRegion1.lean ====
/-
  The attention region: what its output array holds after the run, as one function of the arrays it found.

  The region's grid has 32 points; point t stages query rows 128·t .. 128·t + 127 of all sixteen heads (a
  [16, 128, 64] block of q), the whole of k and v, and writes back rows 128·t .. 128·t + 127 of the [4096, 1024]
  result.  The body fills its [128, 1024] tile by eight stores, one per head pair: pair g loads heads 2g, 2g + 1 and
  stores columns 128·g .. 128·g + 127.  Every store's value is the same composition of its loads
  (`Cert.KernelIdeal.Pair.pair`), so the tile is ONE function of the three blocks: entry (r, e) is the attention
  row of query row r of head e / 64 against that head's keys and values, in lane e % 64.  Reading the blocks back
  through their windows — q's row r of block t is row 128·t + r of the array; k and v are staged whole — the tile
  at point t is block t of the whole-array function `attnOf`, and the 32 blocks tile the array.
-/
import proofs.«176169_j12214886990248_2_alg».proof.Proof.Gen.KernelIdeal.Frame
import proofs.«176169_j12214886990248_2_alg».proof.Proof.KChunk
import Idealize.ShloMosaic.Lib.Pipeline.Value

set_option maxRecDepth 16384

noncomputable section

namespace Cert.KernelIdeal.R1

open Cert.KernelIdeal Cert.KernelIdeal.Gen Cert.KernelIdeal.Pair Cert.Attn
open Idealize.ShloMosaic Idealize.ShloMosaic.TcCoe Idealize.ShloMosaic.ValueIdx Idealize.SL.Sem
open Idealize.ShloMosaic.Pipeline (Dat)

/-- Attention rows of equal operands are equal. -/
theorem attnRow_congr {f g : Fin 64 → EReal} {k k' v v' : Fin 4096 → Fin 64 → EReal} (d : Fin 64)
    (hf : ∀ d, f d = g d) (hk : ∀ t d, k t d = k' t d) (hv : ∀ t d, v t d = v' t d) :
    attnRow f k v d = attnRow g k' v' d := by
  rw [show f = g from funext hf, show k = k' from funext fun t => funext (hk t), show v = v' from funext fun t => funext (hv t)]

/-! ## The body's tile as one function of its three blocks -/

/-- Entry (r, e) of the tile: the attention row of query row r of head e / 64, in lane e % 64. -/
def tileAt (x0 : S16x128x64.Idx → EReal) (x1 x2 : S16x4096x64.Idx → EReal) (r : Fin 128) (e : Fin 1024) : EReal :=
  attnRow (fun d => x0 (ix3 (hd e) r d)) (fun t d => x1 (ix3 (hd e) t d)) (fun t d => x2 (ix3 (hd e) t d)) (lane e)

def tile (x0 : S16x128x64.Idx → EReal) (x1 x2 : S16x4096x64.Idx → EReal) : S128x1024.Idx → EReal :=
  fun y => tileAt x0 x1 x2 (y 0) (y 1)

/-- Head pair g's store: its value at an element of its [128, 128] rectangle is the tile's function at the
    element's place in the tile (columns 128·g ..), its loads being heads 2g, 2g + 1 of the blocks. -/
theorem piece_eq (x0 : Vec Ideal S16x128x64 .f32) (x1 x2 : Vec Ideal S16x4096x64 .f32) (g : Nat) (hg : g < 8)
    (inbq : ∀ a, (![2 * g, 0, 0] : Fin 3 → Nat) a + S2x128x64.size a ≤ S16x128x64.size a)
    (inbk : ∀ a, (![2 * g, 0, 0] : Fin 3 → Nat) a + S2x4096x64.size a ≤ S16x4096x64.size a)
    (inbo : ∀ a, (![0, 128 * g] : Fin 2 → Nat) a + S128x128.size a ≤ S128x1024.size a) (x : S128x128.Idx) :
    pair (View.ld x0 (Rect.unit (s := S16x128x64) ![2 * g, 0, 0] S2x128x64.size inbq))
         (View.ld x1 (Rect.unit (s := S16x4096x64) ![2 * g, 0, 0] S2x4096x64.size inbk))
         (View.ld x2 (Rect.unit (s := S16x4096x64) ![2 * g, 0, 0] S2x4096x64.size inbk)) x
      = tile x0 x1 x2 ((Rect.unit (s := S128x1024) ![0, 128 * g] S128x128.size inbo).emb x) := by
  obtain ⟨r, c, rfl⟩ : ∃ (r : Fin 128) (c : Fin 128), x = ix2 r c := ⟨x 0, x 1, eq_ix2 x⟩
  have hE : (Rect.unit (s := S128x1024) ![0, 128 * g] S128x128.size inbo).emb (ix2 r c)
      = ix2 r (⟨128 * g + c.val, by omega⟩ : Fin 1024) := by
    funext a; apply Fin.ext
    match a with
    | ⟨0, _⟩ => show 0 + 1 * r.val = r.val; omega
    | ⟨1, _⟩ => show 128 * g + 1 * c.val = 128 * g + c.val; omega
  rw [hE]
  refine (pair_apply _ _ _ r c).trans ?_
  show attnRow _ _ _ _ = tileAt x0 x1 x2 r (⟨128 * g + c.val, by omega⟩ : Fin 1024)
  unfold tileAt
  have hh : hd (⟨128 * g + c.val, by omega⟩ : Fin 1024) = (⟨2 * g + c.val / 64, by omega⟩ : Fin 16) :=
    Fin.ext (by show (128 * g + c.val) / 64 = 2 * g + c.val / 64; omega)
  have hl : lane (⟨128 * g + c.val, by omega⟩ : Fin 1024) = (⟨c.val % 64, by omega⟩ : Fin 64) :=
    Fin.ext (by show (128 * g + c.val) % 64 = c.val % 64; omega)
  rw [hh, hl]
  refine attnRow_congr _ (fun d => ?_) (fun t d => ?_) (fun t d => ?_)
  · refine congrArg x0 (funext fun a => Fin.ext ?_)
    match a with
    | ⟨0, _⟩ => show 2 * g + 1 * (c.val / 64) = 2 * g + c.val / 64; omega
    | ⟨1, _⟩ => show 0 + 1 * r.val = r.val; omega
    | ⟨2, _⟩ => show 0 + 1 * d.val = d.val; omega
  · refine congrArg x1 (funext fun a => Fin.ext ?_)
    match a with
    | ⟨0, _⟩ => show 2 * g + 1 * (c.val / 64) = 2 * g + c.val / 64; omega
    | ⟨1, _⟩ => show 0 + 1 * t.val = t.val; omega
    | ⟨2, _⟩ => show 0 + 1 * d.val = d.val; omega
  · refine congrArg x2 (funext fun a => Fin.ext ?_)
    match a with
    | ⟨0, _⟩ => show 2 * g + 1 * (c.val / 64) = 2 * g + c.val / 64; omega
    | ⟨1, _⟩ => show 0 + 1 * t.val = t.val; omega
    | ⟨2, _⟩ => show 0 + 1 * d.val = d.val; omega

/-- The output's staging buffer after the body is the tile of the three input blocks. -/
theorem out1_3_eq (x0 : Vec Ideal S16x128x64 .f32) (x1 x2 : Vec Ideal S16x4096x64 .f32) :
    out1_3 (F := Ideal) x0 x1 x2 = tile x0 x1 x2 := by
  funext y
  unfold out1_3
  refine View.canon_apply_of_pieces (Val := Elt Ideal) (e := .f32) (tile x0 x1 x2) _ ?_ y (cover1_3 _ _ _ _ _ _ _ _ y)
  intro p hp x
  simp only [List.mem_cons, List.not_mem_nil, or_false] at hp
  rcases hp with rfl | rfl | rfl | rfl | rfl | rfl | rfl | rfl
  · exact (congrFun (pay1_eq _ _ _) x).trans (piece_eq x0 x1 x2 7 (by decide) inb_S16x128x64_S2x128x64_14_0_0 inb_S16x4096x64_S2x4096x64_14_0_0 inb_S128x1024_S128x128_0_896 x)
  · exact (congrFun (pay14_eq _ _ _) x).trans (piece_eq x0 x1 x2 6 (by decide) inb_S16x128x64_S2x128x64_12_0_0 inb_S16x4096x64_S2x4096x64_12_0_0 inb_S128x1024_S128x128_0_768 x)
  · exact (congrFun (pay12_eq _ _ _) x).trans (piece_eq x0 x1 x2 5 (by decide) inb_S16x128x64_S2x128x64_10_0_0 inb_S16x4096x64_S2x4096x64_10_0_0 inb_S128x1024_S128x128_0_640 x)
  · exact (congrFun (pay11_eq _ _ _) x).trans (piece_eq x0 x1 x2 4 (by decide) inb_S16x128x64_S2x128x64_8_0_0 inb_S16x4096x64_S2x4096x64_8_0_0 inb_S128x1024_S128x128_0_512 x)
  · exact (congrFun (pay7_eq _ _ _) x).trans (piece_eq x0 x1 x2 3 (by decide) inb_S16x128x64_S2x128x64_6_0_0 inb_S16x4096x64_S2x4096x64_6_0_0 inb_S128x1024_S128x128_0_384 x)
  · exact (congrFun (pay6_eq _ _ _) x).trans (piece_eq x0 x1 x2 2 (by decide) inb_S16x128x64_S2x128x64_4_0_0 inb_S16x4096x64_S2x4096x64_4_0_0 inb_S128x1024_S128x128_0_256 x)
  · exact (congrFun (pay5_eq _ _ _) x).trans (piece_eq x0 x1 x2 1 (by decide) inb_S16x128x64_S2x128x64_2_0_0 inb_S16x4096x64_S2x4096x64_2_0_0 inb_S128x1024_S128x128_0_128 x)
  · exact (congrFun (pay2_eq _ _ _) x).trans (piece_eq x0 x1 x2 0 (by decide) inb_S16x128x64_S2x128x64_0_0_0 inb_S16x4096x64_S2x4096x64_0_0_0 inb_S128x1024_S128x128_0_0 x)

/-! ## The whole-array function, and the tile of blocks read through their windows -/

/-- Entry (s, e) of the result from the three head-split arrays. -/
def attnAt (Q K W : S16x4096x64.Idx → EReal) (s : Fin 4096) (e : Fin 1024) : EReal :=
  attnRow (fun d => Q (ix3 (hd e) s d)) (fun t d => K (ix3 (hd e) t d)) (fun t d => W (ix3 (hd e) t d)) (lane e)

def attnOf (Q K W : S16x4096x64.Idx → EReal) : S4096x1024.Idx → EReal := fun i => attnAt Q K W (i 0) (i 1)

/-- The tile of a block of query rows and the whole key and value arrays is the block of `attnOf`. -/
theorem tile_of_blocks (x0 : Vec Ideal S16x128x64 .f32) (x1 x2 : Vec Ideal S16x4096x64 .f32) (Q K W : S16x4096x64.Idx → EReal) (tv : Nat)
    (h0 : ∀ (h : Fin 16) (r : Fin 128) (d : Fin 64) (s : Fin 4096), s.val = tv * 128 + r.val → x0 (ix3 h r d) = Q (ix3 h s d))
    (h1 : ∀ (h : Fin 16) (t : Fin 4096) (d : Fin 64), x1 (ix3 h t d) = K (ix3 h t d))
    (h2 : ∀ (h : Fin 16) (t : Fin 4096) (d : Fin 64), x2 (ix3 h t d) = W (ix3 h t d))
    (y : S128x1024.Idx) (i : S4096x1024.Idx) (e0 : (i 0).val = tv * 128 + (y 0).val) (e1 : (i 1).val = (y 1).val) :
    tile x0 x1 x2 y = attnOf Q K W i := by
  obtain ⟨r, e, rfl⟩ : ∃ (r : Fin 128) (e : Fin 1024), y = ix2 r e := ⟨y 0, y 1, eq_ix2 y⟩
  obtain ⟨s, e', rfl⟩ : ∃ (s : Fin 4096) (e' : Fin 1024), i = ix2 s e' := ⟨i 0, i 1, eq_ix2 i⟩
  obtain rfl : e' = e := Fin.ext e1
  show tileAt x0 x1 x2 r e' = attnAt Q K W s e'
  unfold tileAt attnAt
  exact attnRow_congr _ (fun d => h0 _ r d s e0) (fun t d => h1 _ t d) (fun t d => h2 _ t d)

/-! ## The region at the contents it is entered with -/

variable (V : (c : Dev nD) → (b : Ref sig .tc) → Buf (Elt Ideal) ((c : Thread nD τ).loc b))

/-- The printed index maps over the grid: q's block and the result's block move with the point along the row
    axis; k and v are staged whole. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = t.val ∧ win1_3.index t (1 : Fin 2) = 0 :=
  (by decide +kernel : ∀ t : Fin grid1.N, _)

/-- q's block at point t: rows 128·t .. of every head. -/
theorem iblk_q (c : Dev nD) (t : Fin cfg1.N) (h : Fin 16) (r : Fin 128) (d : Fin 64) (s : Fin 4096) (hs : s.val = t.val * 128 + r.val) :
    (iblk1 V c 0 t : Vec Ideal S16x128x64 .f32) (ix3 h r d) = (V c main_v0_0 : S16x4096x64.Idx → EReal) (ix3 h s d) := by
  obtain ⟨f0, f1, f2, -⟩ := idx_facts t
  unfold iblk1
  rw [View.read_apply]
  show V c main_v0_0 _ = V c main_v0_0 _
  congr 1
  funext a; apply Fin.ext
  match a with
  | ⟨0, _⟩ => show win1_0.index t (0 : Fin 3) * 16 + 1 * h.val = h.val; rw [f0]; omega
  | ⟨1, _⟩ => show win1_0.index t (1 : Fin 3) * 128 + 1 * r.val = s.val; rw [f1, hs]; omega
  | ⟨2, _⟩ => show win1_0.index t (2 : Fin 3) * 64 + 1 * d.val = d.val; rw [f2]; omega

/-- k's block at every point is the array. -/
theorem iblk_k (c : Dev nD) (t : Fin cfg1.N) (h : Fin 16) (u : Fin 4096) (d : Fin 64) :
    (iblk1 V c 1 t : Vec Ideal S16x4096x64 .f32) (ix3 h u d) = (V c main_v0_1 : S16x4096x64.Idx → EReal) (ix3 h u d) := by
  obtain ⟨-, -, -, f0, f1, f2, -⟩ := idx_facts t
  unfold iblk1
  rw [View.read_apply]
  show V c main_v0_1 _ = V c main_v0_1 _
  congr 1
  funext a; apply Fin.ext
  match a with
  | ⟨0, _⟩ => show win1_1.index t (0 : Fin 3) * 16 + 1 * h.val = h.val; rw [f0]; omega
  | ⟨1, _⟩ => show win1_1.index t (1 : Fin 3) * 4096 + 1 * u.val = u.val; rw [f1]; omega
  | ⟨2, _⟩ => show win1_1.index t (2 : Fin 3) * 64 + 1 * d.val = d.val; rw [f2]; omega

/-- v's block at every point is the array. -/
theorem iblk_v (c : Dev nD) (t : Fin cfg1.N) (h : Fin 16) (u : Fin 4096) (d : Fin 64) :
    (iblk1 V c 2 t : Vec Ideal S16x4096x64 .f32) (ix3 h u d) = (V c main_v0_2 : S16x4096x64.Idx → EReal) (ix3 h u d) := by
  obtain ⟨-, -, -, -, -, -, f0, f1, f2, -⟩ := idx_facts t
  unfold iblk1
  rw [View.read_apply]
  show V c main_v0_2 _ = V c main_v0_2 _
  congr 1
  funext a; apply Fin.ext
  match a with
  | ⟨0, _⟩ => show win1_2.index t (0 : Fin 3) * 16 + 1 * h.val = h.val; rw [f0]; omega
  | ⟨1, _⟩ => show win1_2.index t (1 : Fin 3) * 4096 + 1 * u.val = u.val; rw [f1]; omega
  | ⟨2, _⟩ => show win1_2.index t (2 : Fin 3) * 64 + 1 * d.val = d.val; rw [f2]; omega

/-- WHAT POINT t WRITES BACK is block t of `attnOf` of the three arrays as the region finds them. -/
theorem flushed_eq (c : Dev nD) (t : Fin cfg1.N) :
    (dat1 V c).flushed 3 t = ((cfg1.win 3).blk t).view.read (Elt Ideal)
      (attnOf (V c main_v0_0) (V c main_v0_1) (V c main_v0_2)) := by
  show (cfg1.win 3).cut (grid1.coords t) ((dat1 V c).after 3 t) = _
  rw [after1_3, out1_3_eq]
  obtain ⟨-, -, -, -, -, -, -, -, -, g0, g1⟩ := idx_facts t
  funext y
  show tile (iblk1 V c 0 t) (iblk1 V c 1 t) (iblk1 V c 2 t) y
    = attnOf (V c main_v0_0) (V c main_v0_1) (V c main_v0_2) (((cfg1.win 3).blk t).view.emb y)
  refine tile_of_blocks (iblk1 V c 0 t) (iblk1 V c 1 t) (iblk1 V c 2 t) _ _ _ t.val
    (fun h r d s hs => iblk_q V c t h r d s hs) (fun h u d => iblk_k V c t h u d) (fun h u d => iblk_v V c t h u d) y _ ?_ ?_
  · show win1_3.index t (0 : Fin 2) * 128 + 1 * (y 0).val = t.val * 128 + (y 0).val; rw [g0]; omega
  · show win1_3.index t (1 : Fin 2) * 1024 + 1 * (y 1).val = (y 1).val; rw [g1]; omega

/-- An index of the result array is in point t's block iff each coordinate is in the block's range on its axis. -/
theorem mem_blk (t : Fin cfg1.N) (i : S4096x1024.Idx) :
    i ∈ ((cfg1.win 3).blk t).view.set ↔ ∀ a : Fin 2, win1_3.index t a * S128x1024.size a ≤ (i a).val
      ∧ (i a).val < win1_3.index t a * S128x1024.size a + S128x1024.size a := by
  show i ∈ ((View.whole main_v1).slice (win1_3.rect t)).set ↔ _
  rw [View.set_slice_whole, Rect.mem_set_unit]
  exact Iff.rfl

/-- The 32 blocks tile the array: row s is in block s / 128. -/
theorem cover (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 32 := N_1
  refine ⟨⟨(i 0).val / 128, by rw [hN]; omega⟩, flush1_3 _, ?_⟩
  obtain ⟨-, -, -, -, -, -, -, -, -, g0, g1⟩ := idx_facts ⟨(i 0).val / 128, by rw [hN]; omega⟩
  rw [mem_blk]
  intro a
  match a with
  | ⟨0, _⟩ =>
    show win1_3.index _ (0 : Fin 2) * 128 ≤ (i 0).val ∧ (i 0).val < win1_3.index _ (0 : Fin 2) * 128 + 128
    rw [g0]; show (i 0).val / 128 * 128 ≤ (i 0).val ∧ (i 0).val < (i 0).val / 128 * 128 + 128; omega
  | ⟨1, _⟩ =>
    show win1_3.index _ (1 : Fin 2) * 1024 ≤ (i 1).val ∧ (i 1).val < win1_3.index _ (1 : Fin 2) * 1024 + 1024
    rw [g1]; omega

/-- THE RESULT ARRAY after the region: `attnOf` of the three head-split arrays as the region found them. -/
theorem final (c : Dev nD) :
    (dat1 V c).arrAt 3 cfg1.N = attnOf (V c main_v0_0) (V c main_v0_1) (V c main_v0_2) :=
  (dat1 V c).arrAt_eq_of_cover 3 _ (fun t _ => flushed_eq V c t) cover

end Cert.KernelIdeal.R1

end
-- ==== Proof.KValue.lean ====
/-
  The idealized kernel's run read as a value: its result buffer ends at `Cert.Attn.out` of the four argument
  arrays.  The attention region is entered at what the projection region's write-backs leave — the three
  head-split projections of x —, so its result, the attention of those three arrays, is the specification's
  function of x and the three weights.
-/
import proofs.«176169_j12214886990248_2_alg».proof.Proof.KRun
import proofs.«176169_j12214886990248_2_alg».proof.Proof.KRegion0
import proofs.«176169_j12214886990248_2_alg».proof.Proof.KRegion1

set_option maxRecDepth 16384

noncomputable section

namespace Cert.KernelIdeal.ValueV

open Cert.KernelIdeal Cert.KernelIdeal.Gen Cert.Attn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The attention region finds q, k and v at the head-split projections of x by the three weights. -/
theorem V1_q (c : Dev nD) : V1 m ρ c main_v0_0
    = R0.headsOf (m ((c : Thread nD τ).loc main_arg0)) (m ((c : Thread nD τ).loc main_arg1)) :=
  (hF0 m ρ c 4).symm.trans (R0.final4 (V0 m ρ) c)
theorem V1_k (c : Dev nD) : V1 m ρ c main_v0_1
    = R0.headsOf (m ((c : Thread nD τ).loc main_arg0)) (m ((c : Thread nD τ).loc main_arg2)) :=
  (hF0 m ρ c 5).symm.trans (R0.final5 (V0 m ρ) c)
theorem V1_v (c : Dev nD) : V1 m ρ c main_v0_2
    = R0.headsOf (m ((c : Thread nD τ).loc main_arg0)) (m ((c : Thread nD τ).loc main_arg3)) :=
  (hF0 m ρ c 6).symm.trans (R0.final6 (V0 m ρ) c)

/-- The attention of the three head-split projections is the specification's function of the arguments. -/
theorem attn_heads (X : S4096x1024.Idx → EReal) (Wq Wk Wv : S1024x1024.Idx → EReal) :
    R1.attnOf (R0.headsOf X Wq) (R0.headsOf X Wk) (R0.headsOf X Wv) = Cert.Attn.out X Wq Wk Wv := rfl

/-- The result array after the run. -/
theorem result_eq (c : Dev nD) : (dat1 (V1 m ρ) c).arrAt 3 cfg1.N
    = Cert.Attn.out (m ((c : Thread nD τ).loc main_arg0)) (m ((c : Thread nD τ).loc main_arg1))
        (m ((c : Thread nD τ).loc main_arg2)) (m ((c : Thread nD τ).loc main_arg3)) := by
  refine (R1.final (V1 m ρ) c).trans ?_
  rw [V1_q, V1_k, V1_v]
  exact attn_heads _ _ _ _

/-- Every weakly fair execution of the idealized kernel terminates, nothing faulting, with the result at the
    specification's function of the arguments and the arguments as launched. -/
theorem run : θ_run defs (onTc (τ := τ) (main (F := Ideal))) ⟨m, fun _ => 0, ρ⟩ (fun r => ∀ c : Dev nD,
      r.2.mem ((c.tc : Thread nD τ).loc main_v1)
        = Cert.Attn.out (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (RunV.run_named m ρ)

end Cert.KernelIdeal.ValueV

end
-- ==== Proof.RefSide.lean ====
/-
  The reference program read at an index, stage by stage, down to the specification of Spec.lean:
  the three projections split into heads, the scaled scores, the row maximum, the exponentials,
  their sum, the softmax weights, the weighted sum of the value rows, and last the layout of the result.
-/
import proofs.«176169_j12214886990248_2_alg».proof.Proof.Gen.ReferenceIdeal.Read
import proofs.«176169_j12214886990248_2_alg».proof.Proof.Spec
import Idealize.ShloMosaic.PureOps.Reduce
import Idealize.ShloMosaic.PureOps.Ideal.Laws

noncomputable section
namespace Cert.Attn.Ref
open Cert.ReferenceIdeal Cert.ReferenceIdeal.Gen Cert.ReferenceIdeal.Read Idealize.ShloMosaic Idealize.ShloMosaic.ValueIdx

/-! ## The projections, split into heads

Entry (h, s, d) of a projection's head array is entry (s, 64·h + d) of the product: the reshape reads row-major
position (s·16 + h)·64 + d of a row of 1024, and h·64 + d is below 1024. -/

/-- q: entry (h, s, d) is the sum over k of x(s, k) · wq(k, 64·h + d). -/
theorem q_at (x0 : (⟨S4096x1024, .f32⟩ : BufTy).Contents (Elt Ideal)) (x1 : (⟨S1024x1024, .f32⟩ : BufTy).Contents (Elt Ideal))
    (h : Fin 16) (s : Fin 4096) (d : Fin 64) :
    val_main_v2 (F := Ideal) x0 x1 (ix3 h s d) = projAt x0 x1 h s d := by
  rw [val_main_v2_apply, val_main_v1_apply, val_main_v0_apply]
  unfold projAt
  have hh := h.isLt; have hs := s.isLt; have hd := d.isLt
  refine Finset.sum_congr rfl fun k _ => ?_
  have el : lidx_main_v0 (idx_main_v1 (idx_main_v2 (ix3 h s d))) k = ix2 s k := funext fun a => Fin.ext (by
    match a with
    | ⟨0, _⟩ => show ((s.val * 16 + h.val) * 64 + d.val) / 1024 = s.val; omega
    | ⟨1, _⟩ => rfl)
  have er : ridx_main_v0 (idx_main_v1 (idx_main_v2 (ix3 h s d))) k = ix2 k (col h d) := funext fun a => Fin.ext (by
    match a with
    | ⟨0, _⟩ => rfl
    | ⟨1, _⟩ => show ((s.val * 16 + h.val) * 64 + d.val) % 1024 = 64 * h.val + d.val; omega)
  rw [el, er]

/-- k: entry (h, t, d) is the sum over k of x(t, k) · wk(k, 64·h + d). -/
theorem k_at (x0 : (⟨S4096x1024, .f32⟩ : BufTy).Contents (Elt Ideal)) (x2 : (⟨S1024x1024, .f32⟩ : BufTy).Contents (Elt Ideal))
    (h : Fin 16) (s : Fin 4096) (d : Fin 64) :
    val_main_v5 (F := Ideal) x0 x2 (ix3 h s d) = projAt x0 x2 h s d := by
  rw [val_main_v5_apply, val_main_v4_apply, val_main_v3_apply]
  unfold projAt
  have hh := h.isLt; have hs := s.isLt; have hd := d.isLt
  refine Finset.sum_congr rfl fun k _ => ?_
  have el : lidx_main_v3 (idx_main_v4 (idx_main_v5 (ix3 h s d))) k = ix2 s k := funext fun a => Fin.ext (by
    match a with
    | ⟨0, _⟩ => show ((s.val * 16 + h.val) * 64 + d.val) / 1024 = s.val; omega
    | ⟨1, _⟩ => rfl)
  have er : ridx_main_v3 (idx_main_v4 (idx_main_v5 (ix3 h s d))) k = ix2 k (col h d) := funext fun a => Fin.ext (by
    match a with
    | ⟨0, _⟩ => rfl
    | ⟨1, _⟩ => show ((s.val * 16 + h.val) * 64 + d.val) % 1024 = 64 * h.val + d.val; omega)
  rw [el, er]

/-- v: entry (h, t, d) is the sum over k of x(t, k) · wv(k, 64·h + d). -/
theorem v_at (x0 : (⟨S4096x1024, .f32⟩ : BufTy).Contents (Elt Ideal)) (x3 : (⟨S1024x1024, .f32⟩ : BufTy).Contents (Elt Ideal))
    (h : Fin 16) (s : Fin 4096) (d : Fin 64) :
    val_main_v8 (F := Ideal) x0 x3 (ix3 h s d) = projAt x0 x3 h s d := by
  rw [val_main_v8_apply, val_main_v7_apply, val_main_v6_apply]
  unfold projAt
  have hh := h.isLt; have hs := s.isLt; have hd := d.isLt
  refine Finset.sum_congr rfl fun k _ => ?_
  have el : lidx_main_v6 (idx_main_v7 (idx_main_v8 (ix3 h s d))) k = ix2 s k := funext fun a => Fin.ext (by
    match a with
    | ⟨0, _⟩ => show ((s.val * 16 + h.val) * 64 + d.val) / 1024 = s.val; omega
    | ⟨1, _⟩ => rfl)
  have er : ridx_main_v6 (idx_main_v7 (idx_main_v8 (ix3 h s d))) k = ix2 k (col h d) := funext fun a => Fin.ext (by
    match a with
    | ⟨0, _⟩ => rfl
    | ⟨1, _⟩ => show ((s.val * 16 + h.val) * 64 + d.val) % 1024 = 64 * h.val + d.val; omega)
  rw [el, er]

/-! ## The scaled scores -/

/-- The divisor of the scores: the square root of the word 64, at every index. -/
theorem sqrt64_at (i : S16x4096x4096.Idx) :
    val_main_v11 (F := Ideal) i = Ideal.sqrt (Ideal.ofBits .f32 0x42800000#32) := by
  rw [val_main_v11_apply, val_main_v10_apply, val_main_cst_apply, Ideal.hostUnary_sqrt_def, Ideal.ofBits_def]

/-- Entry (h, s, t) of the scaled scores: the product of query row s and key row t of head h, times 1/8. -/
theorem score_at (x0 : (⟨S4096x1024, .f32⟩ : BufTy).Contents (Elt Ideal)) (x1 x2 : (⟨S1024x1024, .f32⟩ : BufTy).Contents (Elt Ideal))
    (h : Fin 16) (s t : Fin 4096) :
    val_main_v12 (F := Ideal) x0 x1 x2 (ix3 h s t)
      = scoreRow (fun d => projAt x0 x1 h s d) (fun t d => projAt x0 x2 h t d) t := by
  rw [val_main_v12_apply, sqrt64_at, Ideal.hostDivf_def, div_sqrt64, val_main_v9_apply]
  unfold scoreRow
  refine congrArg (· * cScale) (Finset.sum_congr rfl fun k _ => ?_)
  have el : lidx_main_v9 (ix3 h s t) k = ix3 h s k := funext fun a => Fin.ext (by
    match a with | ⟨0, _⟩ => rfl | ⟨1, _⟩ => rfl | ⟨2, _⟩ => rfl)
  have er : ridx_main_v9 (ix3 h s t) k = ix3 h t k := funext fun a => Fin.ext (by
    match a with | ⟨0, _⟩ => rfl | ⟨1, _⟩ => rfl | ⟨2, _⟩ => rfl)
  rw [el, er, q_at, k_at]

/-! ## The row maximum -/

/-- The reduction along the key axis, as the library's one-axis shape fact. -/
theorem hRed : Shape.Reduces S16x4096x4096 [2] S16x4096 := by decide

/-- The index (h, s) with key coordinate k put back is (h, s, k). -/
theorem lift_ix3 (h : Fin 16) (s : Fin 4096) (k : Fin (S16x4096x4096.size 2)) :
    hRed.lift (ix2 h s) k = ix3 h s (⟨k.val, k.isLt⟩ : Fin 4096) := by
  funext c; apply Fin.ext
  fin_cases c <;> rfl

/-- The word both maxima start from is Spec's −∞. -/
theorem negInf_at (i : S_.Idx) : val_main_cst_0 (F := Ideal) i = negInf := rfl

/-- Entry (h, s) of the row maxima: the fold of max from −∞ over the scores of row s of head h. -/
theorem max_at (x0 : (⟨S4096x1024, .f32⟩ : BufTy).Contents (Elt Ideal)) (x1 x2 : (⟨S1024x1024, .f32⟩ : BufTy).Contents (Elt Ideal))
    (h : Fin 16) (s : Fin 4096) :
    val_main_v15 (F := Ideal) x0 x1 x2 (ix2 h s)
      = rowMax (scoreRow (fun d => projAt x0 x1 h s d) (fun t d => projAt x0 x2 h t d)) := by
  rw [val_main_v15_apply, val_main_v14_apply, val_main_cst_1_apply, Ideal.ofBits_def, Ideal.maximumf_def]
  refine (max_negInf _).trans ?_
  have hy : ∀ t : Fin 4096, val_main_v12 (F := Ideal) x0 x1 x2 (ix3 h s t)
      = scoreRow (fun d => projAt x0 x1 h s d) (fun t d => projAt x0 x2 h t d) t := score_at x0 x1 x2 h s
  unfold val_main_v13
  generalize val_main_v12 (F := Ideal) x0 x1 x2 = y at hy ⊢
  generalize scoreRow (fun d => projAt x0 x1 h s d) (fun t d => projAt x0 x2 h t d) = f at hy ⊢
  refine (Host.reduce_eq_fold_single (FloatOps.maximumf (F := Ideal) (φ := .f32)) y _
    reducesTo_S16x4096x4096_S16x4096_d2 hRed h_S_ (ix2 h s)).trans ?_
  have hf : (y ∘ hRed.lift (ix2 h s)) = fun k : Fin 4096 => f k :=
    funext fun k => (congrArg y (lift_ix3 h s k)).trans (hy ⟨k.val, k.isLt⟩)
  rw [hf]
  rfl

/-! ## The exponentials, their sum, and the softmax weights -/

/-- Entry (h, s, t) of the exponentials: exp of the score less its row's maximum. -/
theorem exp_at (x0 : (⟨S4096x1024, .f32⟩ : BufTy).Contents (Elt Ideal)) (x1 x2 : (⟨S1024x1024, .f32⟩ : BufTy).Contents (Elt Ideal))
    (h : Fin 16) (s t : Fin 4096) :
    val_main_v19 (F := Ideal) x0 x1 x2 (ix3 h s t)
      = expRow (scoreRow (fun d => projAt x0 x1 h s d) (fun t d => projAt x0 x2 h t d)) t := by
  rw [val_main_v19_apply, val_main_v18_apply, val_main_v17_apply, val_main_v16_apply,
    Ideal.hostUnary_exp_def, Ideal.subf_def]
  have ei : idx_main_v16 (idx_main_v17 (ix3 h s t)) = ix2 h s := funext fun a => Fin.ext (by
    match a with | ⟨0, _⟩ => rfl | ⟨1, _⟩ => rfl)
  rw [ei, max_at, score_at]
  rfl

/-- Entry (h, s) of the sums: the sum over the row of its exponentials (the initial word is 0). -/
theorem sum_at (x0 : (⟨S4096x1024, .f32⟩ : BufTy).Contents (Elt Ideal)) (x1 x2 : (⟨S1024x1024, .f32⟩ : BufTy).Contents (Elt Ideal))
    (h : Fin 16) (s : Fin 4096) :
    val_main_v20 (F := Ideal) x0 x1 x2 (ix2 h s)
      = ∑ u : Fin 4096, expRow (scoreRow (fun d => projAt x0 x1 h s d) (fun t d => projAt x0 x2 h t d)) u := by
  rw [val_main_v20_apply, val_main_cst_2_apply, Ideal.ofBits_def, Ideal.ofBits_zero_f32, zero_add]
  refine Finset.sum_congr rfl fun k _ => ?_
  have ei : idx_main_v20 (ix2 h s) k = ix3 h s k := funext fun a => Fin.ext (by
    match a with | ⟨0, _⟩ => rfl | ⟨1, _⟩ => rfl | ⟨2, _⟩ => rfl)
  rw [ei, exp_at]

/-- Entry (h, s, t) of the weights: the exponential over its row's sum. -/
theorem soft_at (x0 : (⟨S4096x1024, .f32⟩ : BufTy).Contents (Elt Ideal)) (x1 x2 : (⟨S1024x1024, .f32⟩ : BufTy).Contents (Elt Ideal))
    (h : Fin 16) (s t : Fin 4096) :
    val_main_v23 (F := Ideal) x0 x1 x2 (ix3 h s t)
      = softRow (scoreRow (fun d => projAt x0 x1 h s d) (fun t d => projAt x0 x2 h t d)) t := by
  rw [val_main_v23_apply, val_main_v22_apply, val_main_v21_apply, Ideal.hostDivf_def]
  have ei : idx_main_v21 (idx_main_v22 (ix3 h s t)) = ix2 h s := funext fun a => Fin.ext (by
    match a with | ⟨0, _⟩ => rfl | ⟨1, _⟩ => rfl)
  rw [ei, sum_at, exp_at]
  rfl

/-! ## The weighted sum of the value rows, and the layout of the result -/

/-- Entry (h, s, d) of the heads' outputs: Spec's attention row of query row s of head h, in lane d. -/
theorem head_at (x0 : (⟨S4096x1024, .f32⟩ : BufTy).Contents (Elt Ideal)) (x1 x2 x3 : (⟨S1024x1024, .f32⟩ : BufTy).Contents (Elt Ideal))
    (h : Fin 16) (s : Fin 4096) (d : Fin 64) :
    val_main_v24 (F := Ideal) x0 x1 x2 x3 (ix3 h s d)
      = attnRow (fun d => projAt x0 x1 h s d) (fun t d => projAt x0 x2 h t d) (fun t d => projAt x0 x3 h t d) d := by
  rw [val_main_v24_apply]
  unfold attnRow
  refine Finset.sum_congr rfl fun k _ => ?_
  have el : lidx_main_v24 (ix3 h s d) k = ix3 h s k := funext fun a => Fin.ext (by
    match a with | ⟨0, _⟩ => rfl | ⟨1, _⟩ => rfl | ⟨2, _⟩ => rfl)
  have er : ridx_main_v24 (ix3 h s d) k = ix3 h k d := funext fun a => Fin.ext (by
    match a with | ⟨0, _⟩ => rfl | ⟨1, _⟩ => rfl | ⟨2, _⟩ => rfl)
  rw [el, er, soft_at, v_at]

/-- The reference's result stage is the specification, index by index. -/
theorem ref_eq (x0 : (⟨S4096x1024, .f32⟩ : BufTy).Contents (Elt Ideal)) (x1 x2 x3 : (⟨S1024x1024, .f32⟩ : BufTy).Contents (Elt Ideal)) :
    val_main_v26 (F := Ideal) x0 x1 x2 x3 = Cert.Attn.out x0 x1 x2 x3 := by
  funext i
  obtain ⟨s, e, rfl⟩ : ∃ (s : Fin 4096) (e : Fin 1024), i = ix2 s e := ⟨i 0, i 1, eq_ix2 i⟩
  show val_main_v26 (F := Ideal) x0 x1 x2 x3 (ix2 s e) = outAt x0 x1 x2 x3 s e
  rw [val_main_v26_apply, val_main_v25_apply]
  have hs := s.isLt; have he := e.isLt
  have ei : idx_main_v25 (idx_main_v26 (ix2 s e)) = ix3 (hd e) s (lane e) := funext fun a => Fin.ext (by
    match a with
    | ⟨0, _⟩ => show (s.val * 1024 + e.val) / 64 % 16 = e.val / 64; omega
    | ⟨1, _⟩ => show (s.val * 1024 + e.val) / 1024 = s.val; omega
    | ⟨2, _⟩ => show (s.val * 1024 + e.val) % 64 = e.val % 64; omega)
  rw [ei, head_at]
  rfl

end Cert.Attn.Ref

end
-- ==== Proof.lean ====
/-
  Multi-head self-attention, two Pallas kernels against jnp: the certificate's claims.

  The kernel projects x by three weights into sixteen heads of width 64 (first region), then for each head takes
  the softmax of the scaled scores q · kᵀ · (1/8), row maximum subtracted, and sums the value rows under those
  weights (second region).  The reference does the same on the host, dividing the scores by sqrt(64).  On the
  extended reals both results are `Cert.Attn.out` of the four arguments, element by element: the matrix products
  are the same sums, a quotient by sqrt(64) is the product with 1/8 on every extended real, and a maximum with −∞
  is its other operand.  No finiteness of the inputs is used.

  The three frames are the generated ones (the reference's is its generated run with the result dropped); the
  ideal pass rewrote nothing, so `preserves` is trivial.
-/
import proofs.«176169_j12214886990248_2_alg».proof.Defs
import proofs.«176169_j12214886990248_2_alg».proof.Proof.Gen.Kernel
import proofs.«176169_j12214886990248_2_alg».proof.Proof.Gen.Kernel.Skeleton
import proofs.«176169_j12214886990248_2_alg».proof.Proof.Gen.Kernel.Launch
import proofs.«176169_j12214886990248_2_alg».proof.Proof.Gen.Kernel.Points
import proofs.«176169_j12214886990248_2_alg».proof.Proof.Gen.Kernel.Frame
import proofs.«176169_j12214886990248_2_alg».proof.Proof.Gen.KernelIdeal
import proofs.«176169_j12214886990248_2_alg».proof.Proof.Gen.KernelIdeal.Skeleton
import proofs.«176169_j12214886990248_2_alg».proof.Proof.Gen.KernelIdeal.Launch
import proofs.«176169_j12214886990248_2_alg».proof.Proof.Gen.KernelIdeal.Points
import proofs.«176169_j12214886990248_2_alg».proof.Proof.Gen.KernelIdeal.Frame
import proofs.«176169_j12214886990248_2_alg».proof.Proof.Gen.ReferenceIdeal
import proofs.«176169_j12214886990248_2_alg».proof.Proof.Gen.ReferenceIdeal.Run
import proofs.«176169_j12214886990248_2_alg».proof.Proof.Gen.ReferenceIdeal.Read
import proofs.«176169_j12214886990248_2_alg».proof.Proof.Gen.Pre_finite_inputs
import proofs.«176169_j12214886990248_2_alg».proof.Proof.KValue
import proofs.«176169_j12214886990248_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs, run from memories agreeing on the arguments, end with the result at `Cert.Attn.out` of the
    arguments: the kernel by its two regions read as values, the reference by its run read stage by stage. -/
theorem algebraic : Cert.algebraic_KernelIdeal_ReferenceIdeal := by
  intro m ρ m' ρ' _ hagree
  refine ⟨_, Cert.KernelIdeal.ValueV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.Attn.Ref.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
